-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S8192x2048 : Shape := ⟨2, ![8192, 2048]⟩
abbrev S2048x8192 : Shape := ⟨2, ![2048, 8192]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x4096x2048 .f32) (main_arg1 : FVec F S8192x2048 .f32) (main_arg2 : FVec F S2048x8192 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x4096x2048 : Shape := ⟨3, ![4, 4096, 2048]⟩
abbrev S8192x2048 : Shape := ⟨2, ![8192, 2048]⟩
abbrev S2048x8192 : Shape := ⟨2, ![2048, 8192]⟩
abbrev S16384x2048 : Shape := ⟨2, ![16384, 2048]⟩
abbrev S_ : Shape := ⟨0, ![]⟩
abbrev S16384x8192 : Shape := ⟨2, ![16384, 8192]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S256x8192 : Shape := ⟨2, ![256, 8192]⟩
abbrev S8192x256 : Shape := ⟨2, ![8192, 256]⟩
abbrev S256x256 : Shape := ⟨2, ![256, 256]⟩

abbrev nBuf : Space → Nat
  | .hbm => 55
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S2048x8192, .f32⟩
  | .hbm, ⟨3, _⟩ => ⟨S16384x2048, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048x8192, .f32⟩
  | .hbm, ⟨36, _⟩ => ⟨S2048x8192, .f32⟩
  | .hbm, ⟨37, _⟩ => ⟨S2048x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048x8192, .f32⟩
  | .hbm, ⟨42, _⟩ => ⟨S2048x8192, .f32⟩
  | .hbm, ⟨43, _⟩ => ⟨S_, .f32⟩
  | .hbm, ⟨44, _⟩ => ⟨S2048x8192, .f32⟩
  | .hbm, ⟨45, _⟩ => ⟨S2048x8192, .f32⟩
  | .hbm, ⟨46, _⟩ => ⟨S2048x8192, .f32⟩
  | .hbm, ⟨47, _⟩ => ⟨S2048x8192, .f32⟩
  | .hbm, ⟨48, _⟩ => ⟨S2048x8192, .f32⟩
  | .hbm, ⟨49, _⟩ => ⟨S2048x8192, .bf16⟩
  | .hbm, ⟨50, _⟩ => ⟨S8192x2048, .f32⟩
  | .hbm, ⟨51, _⟩ => ⟨S8192x2048, .bf16⟩
  | .hbm, ⟨52, _⟩ => ⟨S16384x8192, .bf16⟩
  | .hbm, ⟨53, _⟩ => ⟨S16384x2048, .f32⟩
  | .hbm, ⟨54, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x8192, .bf16⟩
  | .local _ .vmem, ⟨7, _⟩ => ⟨S256x8192, .bf16⟩
  | .local _ .vmem, ⟨8, _⟩ => ⟨S8192x256, .bf16⟩
  | .local _ .vmem, ⟨9, _⟩ => ⟨S8192x256, .bf16⟩
  | .local _ .vmem, ⟨10, _⟩ => ⟨S256x256, .f32⟩
  | .local _ .vmem, ⟨11, _⟩ => ⟨S256x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_cst_7 : Ref sig .tc := ⟨.hbm, 31, rfl⟩
abbrev main_v15 : Ref sig .tc := ⟨.hbm, 32, rfl⟩
abbrev main_cst_8 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_9 : Ref sig .tc := ⟨.hbm, 38, rfl⟩
abbrev main_cst_10 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![64, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x4096x2048_S16384x2048 : S4x4096x2048.ShapeCasts S16384x2048
  reducesTo_S8192x2048_S_d0_1 : S8192x2048.ReducesTo [0, 1] S_
  h_S_ : 0 < S_.numel
  bcast_S_S8192x2048 : S_.BroadcastsInDim S8192x2048 (![] : Fin 0 → Fin S8192x2048.rank)
  reducesTo_S2048x8192_S_d0_1 : S2048x8192.ReducesTo [0, 1] S_
  bcast_S_S2048x8192 : S_.BroadcastsInDim S2048x8192 (![] : Fin 0 → Fin S2048x8192.rank)
  transposes_S8192x2048_S2048x8192_1_0 : S8192x2048.Transposes [1, 0] S2048x8192
  bitsLt_bf16_f32 : FTy.bits .bf16 < FTy.bits .f32
  transposes_S2048x8192_S8192x2048_1_0 : S2048x8192.Transposes [1, 0] S8192x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  broadcasts_S256x1_S256x8192 : S256x1.Broadcasts S256x8192
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S16384x2048_S4x4096x2048 : S16384x2048.ShapeCasts S4x4096x2048
  dot_S256x2048_S2048x1024_S256x1024_1_0_0_1_n_n_wf : DotDims.WF S256x2048 S2048x1024 S256x1024 [1] [0] [0] [1] [] []
  dot_S256x8192_S8192x256_S256x256_1_0_0_1_n_n_wf : DotDims.WF S256x8192 S8192x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .bf16 = 32 ∨ (Rect.block (s := S2048x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x8192.size a
  hwx0_2 : ∀ i : grid0.Coords, EltTy.bits .bf16 = 32 ∨ (Rect.block (s := S16384x8192) S256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S16384x8192.size a
  hwx1_0 : ∀ i : grid1.Coords, EltTy.bits .bf16 = 32 ∨ (Rect.block (s := S16384x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x2048.size a
  hwx1_1 : ∀ i : grid1.Coords, EltTy.bits .bf16 = 32 ∨ (Rect.block (s := S8192x2048) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S16384x2048.size a
  hwx1_2 : ∀ i : grid1.Coords, EltTy.bits .f32 = 32 ∨ (Rect.block (s := S16384x2048) S256x256.size (cc1_transform_2 i) (hinb1_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8192x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S8192x2048 : Shape := ⟨2, ![8192, 2048]⟩
abbrev S2048x8192 : Shape := ⟨2, ![2048, 8192]⟩
abbrev S_ : Shape := ⟨0, ![]⟩
abbrev S4x4096 : Shape := ⟨2, ![4, 4096]⟩
abbrev S4x4096x1 : Shape := ⟨3, ![4, 4096, 1]⟩
abbrev S4x4096x8192 : Shape := ⟨3, ![4, 4096, 8192]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8192x2048, .f32⟩
  | .hbm, ⟨2, _⟩ => ⟨S2048x8192, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S4x4096x8192, .f32⟩
  | .hbm, ⟨55, _⟩ => ⟨S4x4096x8192, .f32⟩
  | .hbm, ⟨56, _⟩ => ⟨S4x4096x8192, .f32⟩
  | .hbm, ⟨57, _⟩ => ⟨S_, .f32⟩
  | .hbm, ⟨58, _⟩ => ⟨S4x4096x8192, .f32⟩
  | .hbm, ⟨59, _⟩ => ⟨S4x4096x8192, .f32⟩
  | .hbm, ⟨60, _⟩ => ⟨S_, .f32⟩
  | .hbm, ⟨61, _⟩ => ⟨S4x4096x8192, .f32⟩
  | .hbm, ⟨62, _⟩ => ⟨S4x4096x8192, .f32⟩
  | .hbm, ⟨63, _⟩ => ⟨S4x4096x8192, .f32⟩
  | .hbm, ⟨64, _⟩ => ⟨S4x4096x8192, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x8192, .f32⟩
  | .hbm, ⟨76, _⟩ => ⟨S4x4096x8192, .f32⟩
  | .hbm, ⟨77, _⟩ => ⟨S4x4096x8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4x4096x8192, .f32⟩
  | .hbm, ⟨82, _⟩ => ⟨S4x4096x8192, .f32⟩
  | .hbm, ⟨83, _⟩ => ⟨S_, .f32⟩
  | .hbm, ⟨84, _⟩ => ⟨S4x4096x8192, .f32⟩
  | .hbm, ⟨85, _⟩ => ⟨S4x4096x8192, .f32⟩
  | .hbm, ⟨86, _⟩ => ⟨S4x4096x8192, .f32⟩
  | .hbm, ⟨87, _⟩ => ⟨S4x4096x8192, .f32⟩
  | .hbm, ⟨88, _⟩ => ⟨S4x4096x8192, .f32⟩
  | .hbm, ⟨89, _⟩ => ⟨S4x4096x8192, .f32⟩
  | .hbm, ⟨90, _⟩ => ⟨S2048x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S2048x8192, .f32⟩
  | .hbm, ⟨101, _⟩ => ⟨S2048x8192, .f32⟩
  | .hbm, ⟨102, _⟩ => ⟨S2048x8192, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S2048x8192, .f32⟩
  | .hbm, ⟨107, _⟩ => ⟨S2048x8192, .f32⟩
  | .hbm, ⟨108, _⟩ => ⟨S_, .f32⟩
  | .hbm, ⟨109, _⟩ => ⟨S2048x8192, .f32⟩
  | .hbm, ⟨110, _⟩ => ⟨S2048x8192, .f32⟩
  | .hbm, ⟨111, _⟩ => ⟨S2048x8192, .f32⟩
  | .hbm, ⟨112, _⟩ => ⟨S2048x8192, .f32⟩
  | .hbm, ⟨113, _⟩ => ⟨S2048x8192, .f32⟩
  | .hbm, ⟨114, _⟩ => ⟨S2048x8192, .f32⟩
  | .hbm, ⟨115, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_call3_v0 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_8 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call6_v0 : Ref sig .tc := ⟨.hbm, 55, rfl⟩
abbrev main_call6_v1 : Ref sig .tc := ⟨.hbm, 56, rfl⟩
abbrev main_call6_cst : Ref sig .tc := ⟨.hbm, 57, rfl⟩
abbrev main_call6_v2 : Ref sig .tc := ⟨.hbm, 58, rfl⟩
abbrev main_call6_v3 : Ref sig .tc := ⟨.hbm, 59, rfl⟩
abbrev main_call6_cst_0 : Ref sig .tc := ⟨.hbm, 60, rfl⟩
abbrev main_call6_v4 : Ref sig .tc := ⟨.hbm, 61, rfl⟩
abbrev main_call6_v5 : Ref sig .tc := ⟨.hbm, 62, rfl⟩
abbrev main_v28 : Ref sig .tc := ⟨.hbm, 63, rfl⟩
abbrev main_v29 : Ref sig .tc := ⟨.hbm, 64, rfl⟩
abbrev main_cst_10 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_call7_v0 : Ref sig .tc := ⟨.hbm, 69, rfl⟩
abbrev main_call7_v1 : Ref sig .tc := ⟨.hbm, 70, rfl⟩
abbrev main_v32 : Ref sig .tc := ⟨.hbm, 71, rfl⟩
abbrev main_cst_12 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_13 : Ref sig .tc := ⟨.hbm, 78, rfl⟩
abbrev main_cst_14 : Ref sig .tc := ⟨.hbm, 79, rfl⟩
abbrev main_call9_v0 : Ref sig .tc := ⟨.hbm, 80, rfl⟩
abbrev main_call9_v1 : Ref sig .tc := ⟨.hbm, 81, rfl⟩
abbrev main_call9_v2 : Ref sig .tc := ⟨.hbm, 82, rfl⟩
abbrev main_call9_v3 : Ref sig .tc := ⟨.hbm, 83, rfl⟩
abbrev main_call9_v4 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_15 : Ref sig .tc := ⟨.hbm, 91, rfl⟩
abbrev main_v44 : Ref sig .tc := ⟨.hbm, 92, rfl⟩
abbrev main_cst_16 : Ref sig .tc := ⟨.hbm, 93, rfl⟩
abbrev main_v45 : Ref sig .tc := ⟨.hbm, 94, rfl⟩
abbrev main_cst_17 : Ref sig .tc := ⟨.hbm, 95, rfl⟩
abbrev main_call10_v0 : Ref sig .tc := ⟨.hbm, 96, rfl⟩
abbrev main_v46 : Ref sig .tc := ⟨.hbm, 97, rfl⟩
abbrev main_cst_18 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_19 : Ref sig .tc := ⟨.hbm, 103, rfl⟩
abbrev main_cst_20 : Ref sig .tc := ⟨.hbm, 104, rfl⟩
abbrev main_call12_v0 : Ref sig .tc := ⟨.hbm, 105, rfl⟩
abbrev main_call12_v1 : Ref sig .tc := ⟨.hbm, 106, rfl⟩
abbrev main_call12_v2 : Ref sig .tc := ⟨.hbm, 107, rfl⟩
abbrev main_call12_v3 : Ref sig .tc := ⟨.hbm, 108, rfl⟩
abbrev main_call12_v4 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  reducesTo_S8192x2048_S_d0_1 : S8192x2048.ReducesTo [0, 1] S_
  bcast_S_S8192x2048 : S_.BroadcastsInDim S8192x2048 (![] : Fin 0 → Fin S8192x2048.rank)
  bcast_S_S4x4096x8192 : S_.BroadcastsInDim S4x4096x8192 (![] : Fin 0 → Fin S4x4096x8192.rank)
  reducesTo_S4x4096x8192_S4x4096_d2 : S4x4096x8192.ReducesTo [2] S4x4096
  bcast_S4x4096x1_S4x4096x8192_0_1_2 : S4x4096x1.BroadcastsInDim S4x4096x8192 (![0, 1, 2] : Fin 3 → Fin S4x4096x8192.rank)
  reducesTo_S2048x8192_S_d0_1 : S2048x8192.ReducesTo [0, 1] S_
  bcast_S_S2048x8192 : S_.BroadcastsInDim S2048x8192 (![] : Fin 0 → Fin S2048x8192.rank)
  dot_S4x4096x2048_S8192x2048_S4x4096x8192_2_1_01_0_n_n_wf : DotDims.WF S4x4096x2048 S8192x2048 S4x4096x8192 [2] [1] [0, 1] [0] [] []
  dot_S4x4096x8192_S2048x8192_S4x4096x2048_2_1_01_0_n_n_wf : DotDims.WF S4x4096x8192 S2048x8192 S4x4096x2048 [2] [1] [0, 1] [0] [] []

variable [Facts₀]

def dot_S4x4096x2048_S8192x2048_S4x4096x8192_2_1_01_0_n_n : DotDims S4x4096x2048 S8192x2048 S4x4096x8192 where
  lhsContracting := [2]
  rhsContracting := [1]
  lhsNonContracting := [0, 1]
  rhsNonContracting := [0]
  lhsBatch := []
  rhsBatch := []
  wf := dot_S4x4096x2048_S8192x2048_S4x4096x8192_2_1_01_0_n_n_wf
def dot_S4x4096x8192_S2048x8192_S4x4096x2048_2_1_01_0_n_n : DotDims S4x4096x8192 S2048x8192 S4x4096x2048 where
  lhsContracting := [2]
  rhsContracting := [1]
  lhsNonContracting := [0, 1]
  rhsNonContracting := [0]
  lhsBatch := []
  rhsBatch := []
  wf := dot_S4x4096x8192_S2048x8192_S4x4096x2048_2_1_01_0_n_n_wf

class Facts : Prop extends Facts₀ where

variable [Facts]
-- ==== Proof.KernelRun.lean ====
/-
  The kernel program's run with its result buffer named.

  @main is nine stretches of host operations, the two regions, and a final reshape. Every weakly fair execution
  terminates with every buffer that outlives the regions at the fold of those twelve segments over the launch
  memory; read at the result buffer and at the three arguments this is the statement below. The segments, their
  proof data and the fold are the frame's; only the buffers read from the final state differ.
-/
import proofs.«159230_j29678224016194_1_alg».proof.Proof.Gen.KernelIdeal.Frame

set_option maxRecDepth 16384

noncomputable section

namespace Cert.QuantFfn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument arrays as launched. -/
theorem run_result : θ_run defs (onTc (τ := τ) (main (F := F))) ⟨m, fun _ => 0, ρ⟩ (fun r => ∀ c : Dev nD,
      r.2.mem ((c.tc : Thread nD τ).loc main_v29) = W12 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v29 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c)⟩)

end Cert.QuantFfn.Kernel

end
-- ==== Proof.LibAxisMax.lean ====
/-
  The maximum along one axis, read at an index on the extended reals.

  A vector unit's maximum reduction of `src : [n, d]` along its last axis is, at row `r`, the running maximum of
  the row `k ↦ src (r, k)` started from the accumulator word's value; along its first axis it is, at column `j`, the
  running maximum of the column. The host's reduction with a maximum body over a stack `[b, n, m]` is the same
  running maximum, along the last axis at `(b, i)` and along the middle axis at `(b, j)`, started from the initial
  value. `max` on the extended reals is commutative and associative, so the order of the fold does not matter,
  and the word of `-∞` is its neutral element.
-/
import Idealize.ShloMosaic.PureOps.Ideal
import Idealize.ShloMosaic.PureOps.Ideal.Laws
import Idealize.ShloMosaic.PureOps.Reduce
import Idealize.ShloMosaic.Lib.ValueIdx

noncomputable section

namespace Cert.LibAxisMax

open Idealize.ShloMosaic Idealize.ShloMosaic.ValueIdx

/-- The running maximum of a finite family `f` started from `b`. -/
def foldMax {n : ℕ} (b : EReal) (f : Fin n → EReal) : EReal := (Finset.univ : Finset (Fin n)).fold max b f

/-- The f32 word of `-∞` is the least extended real, so it is neutral for `max`. -/
theorem max_negInf_left (y : EReal) : max (Ideal.ofBits .f32 0xFF800000#32) y = y := by
  simp [Ideal.ofBits, Ideal.ieee]

/-- The maximum reduction of `[n, d]` along its last axis, at row `r`, is the running maximum of that row. -/
theorem max_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.maximumf.neutral φ hφ) (r : Fin n) :
    multiReduction .maximumf [1] ⟨1, ![n]⟩ src acc h hφ hacc (ix1 r) = foldMax (Ideal.ofBits φ acc) fun k : Fin d => src (ix2 r k) := by
  refine (Ideal.multiReduction_maximumf_single src acc h hφ hacc (ix1 r)).trans ?_
  refine congrArg (fun f : Fin d → EReal => (Finset.univ : Finset (Fin d)).fold max (Ideal.ofBits φ acc) f) ?_
  refine funext fun k => congrArg src (funext fun a => Fin.ext ?_)
  match a with
  | ⟨0, _⟩ => rfl
  | ⟨1, _⟩ => rfl

/-- The maximum reduction of `[n, d]` along its first axis, at column `j`, is the running maximum of that column. -/
theorem max_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.maximumf.neutral φ hφ) (j : Fin d) :
    multiReduction .maximumf [0] ⟨1, ![d]⟩ src acc h hφ hacc (ix1 j) = foldMax (Ideal.ofBits φ acc) fun r : Fin n => src (ix2 r j) := by
  refine (Ideal.multiReduction_maximumf_single src acc h hφ hacc (ix1 j)).trans ?_
  refine congrArg (fun f : Fin n → EReal => (Finset.univ : Finset (Fin n)).fold max (Ideal.ofBits φ acc) f) ?_
  refine funext fun r => congrArg src (funext fun a => Fin.ext ?_)
  match a with
  | ⟨0, _⟩ => rfl
  | ⟨1, _⟩ => rfl

/-- The host's maximum reduction of a stack `[b, n, m]` along its last axis, at `(p, i)`, is the running maximum of
    `k ↦ x (p, i, k)` started from the initial value. -/
theorem host_max_last {b n m : ℕ} {u : Shape} (x : (⟨3, ![b, n, m]⟩ : Shape).Idx → EReal) (init : u.Idx → EReal)
    (h' : Shape.ReducesTo ⟨3, ![b, n, m]⟩ [2] ⟨2, ![b, n]⟩) (h : Shape.Reduces ⟨3, ![b, n, m]⟩ [2] ⟨2, ![b, n]⟩)
    (hu : 0 < u.numel) (p : Fin b) (i : Fin n) :
    Host.reduce (FloatOps.maximumf (F := Ideal) (φ := .f32)) x init h' hu (ix2 p i)
      = foldMax (init (Shape.Idx.first hu)) fun k : Fin m => x (ix3 p i k) := by
  refine (Host.reduce_eq_fold_single (FloatOps.maximumf (F := Ideal) (φ := .f32)) x init h' h hu (ix2 p i)).trans ?_
  refine congrArg (fun f : Fin m → EReal => (Finset.univ : Finset (Fin m)).fold max (init (Shape.Idx.first hu)) f) ?_
  refine funext fun k => congrArg x (funext fun a => Fin.ext ?_)
  match a with
  | ⟨0, _⟩ => rfl
  | ⟨1, _⟩ => rfl
  | ⟨2, _⟩ => rfl

/-- The host's maximum reduction of a stack `[b, n, m]` along its middle axis, at `(p, j)`, is the running maximum
    of `i ↦ x (p, i, j)` started from the initial value. -/
theorem host_max_mid {b n m : ℕ} {u : Shape} (x : (⟨3, ![b, n, m]⟩ : Shape).Idx → EReal) (init : u.Idx → EReal)
    (h' : Shape.ReducesTo ⟨3, ![b, n, m]⟩ [1] ⟨2, ![b, m]⟩) (h : Shape.Reduces ⟨3, ![b, n, m]⟩ [1] ⟨2, ![b, m]⟩)
    (hu : 0 < u.numel) (p : Fin b) (j : Fin m) :
    Host.reduce (FloatOps.maximumf (F := Ideal) (φ := .f32)) x init h' hu (ix2 p j)
      = foldMax (init (Shape.Idx.first hu)) fun i : Fin n => x (ix3 p i j) := by
  refine (Host.reduce_eq_fold_single (FloatOps.maximumf (F := Ideal) (φ := .f32)) x init h' h hu (ix2 p j)).trans ?_
  refine congrArg (fun f : Fin n → EReal => (Finset.univ : Finset (Fin n)).fold max (init (Shape.Idx.first hu)) f) ?_
  refine funext fun i => congrArg x (funext fun a => Fin.ext ?_)
  match a with
  | ⟨0, _⟩ => rfl
  | ⟨1, _⟩ => rfl
  | ⟨2, _⟩ => rfl

end Cert.LibAxisMax

end
-- ==== Proof.Spec.lean ====
/-
  A two-layer feed-forward block with quantised operands, as one function of a token's row and the two weight
  matrices, on the extended reals.

  A token's row is scaled so that its largest magnitude (at least ε) lands on 127, rounded to the nearest integer
  (ties to even), limited to [-128, 127] and scaled back. A weight matrix is scaled by the reciprocal of its mean
  magnitude (at least ε), rounded, limited to [-1, 1] and scaled back. The hidden layer is the gated unit
  v · σ(v) of the product of the quantised row with the quantised first matrix; the output is the product of the
  quantised hidden row with the quantised second matrix.

  The reference program adds to each operand the difference between its quantised value and itself
  (a + (q − a)); on a real `a` that is `q`, whatever `q` is.
-/
import Idealize.ShloMosaic.PureOps.Ideal
import Idealize.ShloMosaic.Lib.ValueIdx
import proofs.«159230_j29678224016194_1_alg».proof.Proof.LibAxisMax

noncomputable section

namespace Cert.QuantFfn

open Idealize.ShloMosaic Cert.LibAxisMax

/-! ## The seven 32-bit patterns the two programs spell -/

/-- -∞ -/
abbrev wNegInf : EReal := Ideal.ofBits .f32 0xFF800000#32
/-- ε = 9.99999974·10⁻⁶ -/
abbrev wEps : EReal := Ideal.ofBits .f32 0x3727C5AC#32
/-- 127 -/
abbrev w127 : EReal := Ideal.ofBits .f32 0x42FE0000#32
/-- -128 -/
abbrev wNeg128 : EReal := Ideal.ofBits .f32 0xC3000000#32
/-- 1 -/
abbrev wOne : EReal := Ideal.ofBits .f32 0x3F800000#32
/-- -1 -/
abbrev wNegOne : EReal := Ideal.ofBits .f32 0xBF800000#32
/-- 2²⁴ = 8192 · 2048, the number of entries of either weight matrix -/
abbrev wCount : EReal := Ideal.ofBits .f32 0x4B800000#32
/-- 0 -/
abbrev wZero : EReal := Ideal.ofBits .f32 0x00000000#32

/-! ## The scalar pieces -/

/-- The magnitude |x|. -/
def eabs (x : EReal) : EReal := max x (-x)

/-- To the nearest integer, ties to even; the infinities fixed. -/
def rne (x : EReal) : EReal := Ideal.liftRound Ideal.roundHalfEven x

/-- The gated unit v · σ(v), σ(v) = 1 / (1 + e⁻ᵛ). -/
def silu (v : EReal) : EReal := v * Ideal.logistic v

/-- A token's scale: 127 / max(maxₖ |row k|, ε). -/
def tokScale {K : ℕ} (row : Fin K → EReal) : EReal :=
  Ideal.div w127 (max (foldMax wNegInf fun k => eabs (row k)) wEps)

/-- A token's entry on the 8-bit grid, scaled back. -/
def tokQuant {K : ℕ} (row : Fin K → EReal) (k : Fin K) : EReal :=
  Ideal.div (min w127 (max wNeg128 (rne (row k * tokScale row)))) (tokScale row)

/-- A weight matrix's scale from the total `s` of its magnitudes: 1 / max(s / 2²⁴, ε). -/
def wScale (s : EReal) : EReal := Ideal.div wOne (max (Ideal.div s wCount) wEps)

/-- A weight entry on the ternary grid, scaled back. -/
def wQuant (s w : EReal) : EReal := Ideal.div (min wOne (max wNegOne (rne (w * wScale s)))) (wScale s)

/-- The total of an array's magnitudes, accumulated from the zero word. -/
def absTotal {s : Shape} (x : s.Idx → EReal) : EReal := wZero + ∑ j : s.Idx, eabs (x j)

/-- An operand with the difference to its quantised value added back: a + (q − a). -/
def ste (a q : EReal) : EReal := a + (q - a)

/-! ## The block, as the kernel computes it -/

/-- The hidden row of a token. -/
def hidden (xrow : Fin 2048 → EReal) (s1 : EReal) (W1 : Fin 8192 → Fin 2048 → EReal) (f : Fin 8192) : EReal :=
  silu (∑ k : Fin 2048, tokQuant xrow k * wQuant s1 (W1 f k))

/-- The output row of a token. -/
def out (xrow : Fin 2048 → EReal) (s1 : EReal) (W1 : Fin 8192 → Fin 2048 → EReal) (s2 : EReal)
    (W2 : Fin 2048 → Fin 8192 → EReal) (d : Fin 2048) : EReal :=
  ∑ f : Fin 8192, tokQuant (hidden xrow s1 W1) f * wQuant s2 (W2 d f)

/-! ## The block, as the reference computes it -/

/-- The reference's hidden row: every operand is `a + (q − a)`. -/
def refHidden (xrow : Fin 2048 → EReal) (s1 : EReal) (W1 : Fin 8192 → Fin 2048 → EReal) (f : Fin 8192) : EReal :=
  silu (∑ k : Fin 2048, ste (xrow k) (tokQuant xrow k) * ste (W1 f k) (wQuant s1 (W1 f k)))

/-- The reference's output row. -/
def refOut (xrow : Fin 2048 → EReal) (s1 : EReal) (W1 : Fin 8192 → Fin 2048 → EReal) (s2 : EReal)
    (W2 : Fin 2048 → Fin 8192 → EReal) (d : Fin 2048) : EReal :=
  ∑ f : Fin 8192, ste (refHidden xrow s1 W1 f) (tokQuant (refHidden xrow s1 W1) f) * ste (W2 d f) (wQuant s2 (W2 d f))

/-! ## The block over whole arrays -/

open Idealize.ShloMosaic.ValueIdx in
/-- The kernel's result array: token (b, s) of `x0` through the block with the weight matrices `x1` (hidden × model)
    and `x2` (model × hidden), each scaled by the total of its own magnitudes. -/
def ffn (x0 : (⟨3, ![4, 4096, 2048]⟩ : Shape).Idx → EReal) (x1 : (⟨2, ![8192, 2048]⟩ : Shape).Idx → EReal)
    (x2 : (⟨2, ![2048, 8192]⟩ : Shape).Idx → EReal) : (⟨3, ![4, 4096, 2048]⟩ : Shape).Idx → EReal :=
  fun i => out (fun k => x0 (ix3 (i 0) (i 1) k)) (absTotal x1) (fun f k => x1 (ix2 f k)) (absTotal x2)
    (fun d f => x2 (ix2 d f)) (i 2)

/-! ## Realness -/

/-- An extended real that is a real number. -/
def IsReal (x : EReal) : Prop := ∃ r : ℝ, x = (r : EReal)

end Cert.QuantFfn

end
-- ==== Proof.LibKeepdims.lean ====
/-
  A column kept as a unit axis, read at an index.

  A reduction that keeps its axis leaves a column `[a, 1]`: the vector `[a]` re-laid with a trailing unit axis, which
  reads at `(i, u)` the vector at `i`; and that column spread over `b` lanes reads at `(i, j)` the column at
  `(i, 0)`. Both hold for any element type.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.GateBody.lean ====
/-
  The gate kernel's stored block, read at an index.

  One grid point loads a block of 256 token rows (all 2048 model coordinates of each) and a 2048 × 1024 panel of the
  first weight matrix, already quantised and transposed. Each row is put on the 8-bit grid with its own scale — the
  row's largest magnitude is taken over the WHOLE row, which the block holds —, the quantised rows are multiplied
  with the panel into a zero accumulator, and the gated unit v · σ(v) is applied. So entry (p, q) of the stored block
  is the gated unit of ∑ₖ Q(row p)(k) · panel(k, q).
-/
import proofs.«159230_j29678224016194_1_alg».proof.Proof.Gen.KernelIdeal.Skeleton
import proofs.«159230_j29678224016194_1_alg».proof.Proof.Spec
import proofs.«159230_j29678224016194_1_alg».proof.Proof.LibAxisMax
import proofs.«159230_j29678224016194_1_alg».proof.Proof.LibKeepdims
import proofs.«159230_j29678224016194_1_alg».proof.Proof.LibMatmulPlain
import Idealize.ShloMosaic.Lib.ValueIdx
import Idealize.ShloMosaic.Lib.Pipeline.Value

noncomputable section

namespace Cert.QuantFfn.Kernel

open Idealize.ShloMosaic Idealize.ShloMosaic.ValueIdx Cert.KernelIdeal Cert.KernelIdeal.Gen Cert.QuantFfn Cert.LibAxisMax

variable [Cert.KernelIdeal.Facts]

/-! ## Rows on the 8-bit grid, for any block of rows -/

/-- The column of per-row scales of a block of rows: 127 over the larger of the row's largest magnitude and ε. -/
def rowScales {n d : ℕ} (x : FVec Ideal ⟨2, ![n, d]⟩ .f32)
    (hred : Shape.Reduces ⟨2, ![n, d]⟩ [1] ⟨1, ![n]⟩) (hcast : (⟨1, ![n]⟩ : Shape).ShapeCasts ⟨2, ![n, 1]⟩) :
    FVec Ideal ⟨2, ![n, 1]⟩ .f32 :=
  divf (broadcast ⟨2, ![n, 1]⟩ (FloatOps.ofBits (F := Ideal) .f32 0x42FE0000#32))
    (maximumf (shapeCast ⟨2, ![n, 1]⟩ (multiReduction .maximumf [1] ⟨1, ![n]⟩ (absf x) 0xFF800000#32 hred (.inl rfl) rfl) hcast)
      (broadcast ⟨2, ![n, 1]⟩ (FloatOps.ofBits (F := Ideal) .f32 0x3727C5AC#32)))

/-- A block of rows on the 8-bit grid, with a column `sc` of scales: scaled, rounded, limited to [-128, 127],
    scaled back. -/
def rowsQuant {n d : ℕ} (x : FVec Ideal ⟨2, ![n, d]⟩ .f32) (sc : FVec Ideal ⟨2, ![n, 1]⟩ .f32)
    (h : (⟨2, ![n, 1]⟩ : Shape).Broadcasts ⟨2, ![n, d]⟩) : FVec Ideal ⟨2, ![n, d]⟩ .f32 :=
  divf (minimumf (broadcast ⟨2, ![n, d]⟩ (FloatOps.ofBits (F := Ideal) .f32 0x42FE0000#32))
      (maximumf (broadcast ⟨2, ![n, d]⟩ (FloatOps.ofBits (F := Ideal) .f32 0xC3000000#32))
        (roundeven (mulf x (broadcastTo ⟨2, ![n, d]⟩ sc h)))))
    (broadcastTo ⟨2, ![n, d]⟩ sc h)

/-- The scale of row p is the token scale of that row. -/
theorem rowScales_apply {n d : ℕ} (x : FVec Ideal ⟨2, ![n, d]⟩ .f32)
    (hred : Shape.Reduces ⟨2, ![n, d]⟩ [1] ⟨1, ![n]⟩) (hcast : (⟨1, ![n]⟩ : Shape).ShapeCasts ⟨2, ![n, 1]⟩) (p : Fin n) :
    rowScales x hred hcast (ix2 p (0 : Fin 1)) = tokScale (fun k => x (ix2 p k)) := by
  show Ideal.div w127 (max (shapeCast ⟨2, ![n, 1]⟩ (multiReduction .maximumf [1] ⟨1, ![n]⟩ (absf x) 0xFF800000#32 hred (.inl rfl) rfl) hcast
      (ix2 p (0 : Fin 1))) wEps) = _
  rw [Cert.LibKeepdims.shapeCast_a_a1_apply _ hcast p (0 : Fin 1)]
  refine congrArg (fun M => Ideal.div w127 (max M wEps)) ?_
  exact max_last (absf x) 0xFF800000#32 hred (.inl rfl) rfl p

/-- Entry (p, k) of the quantised block: the entry times its row's scale, rounded, limited, divided by the scale. -/
theorem rowsQuant_apply {n d : ℕ} (x : FVec Ideal ⟨2, ![n, d]⟩ .f32) (sc : FVec Ideal ⟨2, ![n, 1]⟩ .f32)
    (h : (⟨2, ![n, 1]⟩ : Shape).Broadcasts ⟨2, ![n, d]⟩) (p : Fin n) (k : Fin d) :
    rowsQuant x sc h (ix2 p k)
      = Ideal.div (min w127 (max wNeg128 (rne (x (ix2 p k) * sc (ix2 p (0 : Fin 1)))))) (sc (ix2 p (0 : Fin 1))) := by
  show Ideal.div (min w127 (max wNeg128 (rne (x (ix2 p k) * broadcastTo ⟨2, ![n, d]⟩ sc h (ix2 p k)))))
      (broadcastTo ⟨2, ![n, d]⟩ sc h (ix2 p k)) = _
  rw [Cert.LibKeepdims.broadcastTo_a1_ab_apply sc h p k]

/-- With the rows' own scales, entry (p, k) is the token quantisation of row p at k. -/
theorem rowsQuant_rowScales_apply {n d : ℕ} (x : FVec Ideal ⟨2, ![n, d]⟩ .f32)
    (hred : Shape.Reduces ⟨2, ![n, d]⟩ [1] ⟨1, ![n]⟩) (hcast : (⟨1, ![n]⟩ : Shape).ShapeCasts ⟨2, ![n, 1]⟩)
    (h : (⟨2, ![n, 1]⟩ : Shape).Broadcasts ⟨2, ![n, d]⟩) (p : Fin n) (k : Fin d) :
    rowsQuant x (rowScales x hred hcast) h (ix2 p k) = tokQuant (fun k => x (ix2 p k)) k := by
  rw [rowsQuant_apply, rowScales_apply]
  rfl

/-! ## The gate body -/

/-- The stored block is the gated product of the quantised rows with the panel. -/
theorem gate_pay_eq (x0 : FVec Ideal S256x2048 .f32) (x1 : FVec Ideal S2048x1024 .bf16) :
    k0_pay1 (F := Ideal) x0 x1
      = truncf .bf16 (mulf
          (matmul dot_S256x2048_S2048x1024_S256x1024_1_0_0_1_n_n none
            (truncf .bf16 (rowsQuant (shapeCast S256x2048 x0 Gen.shapeCasts_S256x2048_S256x2048)
              (rowScales (shapeCast S256x2048 x0 Gen.shapeCasts_S256x2048_S256x2048) Gen.reduces_S256x2048_S256 Gen.shapeCasts_S256_S256x1)
              Gen.broadcasts_S256x1_S256x2048) Gen.bitsLt_bf16_f32)
            (shapeCast S2048x1024 x1 Gen.shapeCasts_S2048x1024_S2048x1024) (constant S256x1024 .f32 0x00000000#32))
          (logistic (matmul dot_S256x2048_S2048x1024_S256x1024_1_0_0_1_n_n none
            (truncf .bf16 (rowsQuant (shapeCast S256x2048 x0 Gen.shapeCasts_S256x2048_S256x2048)
              (rowScales (shapeCast S256x2048 x0 Gen.shapeCasts_S256x2048_S256x2048) Gen.reduces_S256x2048_S256 Gen.shapeCasts_S256_S256x1)
              Gen.broadcasts_S256x1_S256x2048) Gen.bitsLt_bf16_f32)
            (shapeCast S2048x1024 x1 Gen.shapeCasts_S2048x1024_S2048x1024) (constant S256x1024 .f32 0x00000000#32))))
          Gen.bitsLt_bf16_f32 := rfl

/-- The gated unit of a product into the zero accumulator, at (p, q). -/
theorem gated_product_apply (Q : FVec Ideal S256x2048 .bf16) (W : FVec Ideal S2048x1024 .bf16) (p : Fin 256) (q : Fin 1024) :
    truncf .bf16 (mulf (matmul dot_S256x2048_S2048x1024_S256x1024_1_0_0_1_n_n none Q W (constant S256x1024 .f32 0x00000000#32))
        (logistic (matmul dot_S256x2048_S2048x1024_S256x1024_1_0_0_1_n_n none Q W (constant S256x1024 .f32 0x00000000#32))))
      Gen.bitsLt_bf16_f32 (ix2 p q) = silu (∑ k : Fin 2048, Q (ix2 p k) * W (ix2 k q)) :=
  congrArg silu (Cert.LibMatmulPlain.matmul_zero_apply none Q W p q)

/-- Entry (p, q) of the block the gate kernel stores: the gated unit of the quantised row p against column q of
    the weight panel. -/
theorem gate_pay_apply (x0 : FVec Ideal S256x2048 .f32) (x1 : FVec Ideal S2048x1024 .bf16) (p : Fin 256) (q : Fin 1024) :
    k0_pay1 (F := Ideal) x0 x1 (ix2 p q)
      = silu (∑ k : Fin 2048, tokQuant (fun k => x0 (ix2 p k)) k * x1 (ix2 k q)) := by
  rw [gate_pay_eq, gated_product_apply]
  simp only [shapeCast_self]
  refine congrArg silu (Finset.sum_congr rfl fun k _ => congrArg (· * x1 (ix2 k q)) ?_)
  rw [truncf_apply]
  exact rowsQuant_rowScales_apply (n := 256) (d := 2048) x0 Gen.reduces_S256x2048_S256 Gen.shapeCasts_S256_S256x1
    Gen.broadcasts_S256x1_S256x2048 p k

end Cert.QuantFfn.Kernel

end
-- ==== Proof.GateArray.lean ====
/-
  The gate region's output array as one function of its two input arrays.

  The grid is 64 × 8: point (i, j) reads rows 256·i … 256·i + 255 of the token array (all 2048 columns) and columns
  1024·j … 1024·j + 1023 of the weight panel array (all 2048 rows), and writes block (i, j) of the 16384 × 8192 hidden
  array. Entry (r, f) of that block depends on row r of the tokens and column f of the panels only, so every block is
  the restriction of ONE function of the two arrays, and the 512 blocks tile the hidden array.
-/
import proofs.«159230_j29678224016194_1_alg».proof.Proof.Gen.KernelIdeal.Frame
import proofs.«159230_j29678224016194_1_alg».proof.Proof.GateBody
import Idealize.ShloMosaic.Lib.Pipeline.Value

set_option maxRecDepth 16384

noncomputable section

namespace Cert.QuantFfn.Kernel

open Idealize.ShloMosaic Idealize.ShloMosaic.ValueIdx Idealize.ShloMosaic.TcCoe Idealize.SL.Sem
open Cert.KernelIdeal Cert.KernelIdeal.Gen Cert.QuantFfn
open Idealize.ShloMosaic.Pipeline (Dat Cfg Window)

/-- The hidden array: entry (r, f) is the gated unit of the quantised token row r against column f of the panels. -/
def gateArr (A : S16384x2048.Idx → EReal) (B : S2048x8192.Idx → EReal) : S16384x8192.Idx → EReal :=
  fun i => silu (∑ k : Fin 2048, tokQuant (fun k => A (ix2 (i 0) k)) k * B (ix2 k (i 1)))

theorem gateArr_apply (A : S16384x2048.Idx → EReal) (B : S2048x8192.Idx → EReal) (r : Fin 16384) (f : Fin 8192) :
    gateArr A B (ix2 r f) = silu (∑ k : Fin 2048, tokQuant (fun k => A (ix2 r k)) k * B (ix2 k f)) := rfl

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the token window moves with the output's row block and stays at column block
    0; the panel window stays at row block 0 and moves with the output's column block. -/
theorem gate_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 63 ∧ win0_2.index t (1 : Fin 2) ≤ 7 :=
  (by decide +kernel : ∀ t : Fin grid0.N, _)

/-- The output's block at point t is (t / 8, t % 8): the grid runs over its last axis fastest. -/
theorem gate_idx_out : ∀ t : Fin cfg0.N, win0_2.index t (0 : Fin 2) = t.val / 8 ∧ win0_2.index t (1 : Fin 2) = t.val % 8 :=
  (by decide +kernel : ∀ t : Fin grid0.N, _)

/-- What point t writes back is block t of the hidden array. -/
theorem gate_flushed_eq (c : Dev nD) (t : Fin cfg0.N) :
    (dat0 V c).flushed 2 t = ((cfg0.win 2).blk t).view.read (Elt Ideal) (gateArr (V c main_v0) (V c main_v24)) := by
  show (cfg0.win 2).cut (grid0.coords t) ((dat0 V c).after 2 t) = _
  rw [after0_2]
  unfold out0_2
  rw [View.canon_unit_zero hz]
  simp only [View.ld_unit_zero (S := S256x2048) hz, View.ld_unit_zero (S := S2048x1024) hz]
  obtain ⟨e0, e1, e2, e3, e4, e5⟩ := gate_idx_facts t
  funext j
  obtain ⟨p, q, rfl⟩ : ∃ (p : Fin 256) (q : Fin 1024), j = ix2 p q := ⟨j 0, j 1, eq_ix2 j⟩
  have hp : p.val < 256 := p.isLt
  have hq : q.val < 1024 := q.isLt
  show k0_pay1 (iblk0 V c 0 t) (iblk0 V c 1 t) (ix2 p q)
    = gateArr (V c main_v0) (V c main_v24) (((cfg0.win 2).blk t).view.emb (ix2 p q))
  rw [gate_pay_apply]
  -- where the entry sits in the hidden array
  have hr : ((cfg0.win 2).blk t).view.emb (ix2 p q)
      = ix2 (⟨win0_2.index t (0 : Fin 2) * 256 + p.val, by omega⟩ : Fin 16384) (⟨win0_2.index t (1 : Fin 2) * 1024 + q.val, by omega⟩ : Fin 8192) := by
    funext a; apply Fin.ext
    match a with
    | ⟨0, _⟩ => show win0_2.index t (0 : Fin 2) * 256 + 1 * p.val = win0_2.index t (0 : Fin 2) * 256 + p.val; omega
    | ⟨1, _⟩ => show win0_2.index t (1 : Fin 2) * 1024 + 1 * q.val = win0_2.index t (1 : Fin 2) * 1024 + q.val; omega
  rw [hr, gateArr_apply]
  -- the token block's row p is row 256·i + p of the token array, whole
  have h0 : (fun k : Fin 2048 => iblk0 V c 0 t (ix2 p k))
      = fun k : Fin 2048 => V c main_v0 (ix2 (⟨win0_2.index t (0 : Fin 2) * 256 + p.val, by omega⟩ : Fin 16384) k) := by
    funext k
    have hk : k.val < 2048 := k.isLt
    show V c main_v0 (((cfg0.win 0).blk t).view.emb (ix2 p k)) = _
    refine congrArg (V c main_v0) (funext fun a => Fin.ext ?_)
    match a with
    | ⟨0, _⟩ => show win0_0.index t (0 : Fin 2) * 256 + 1 * p.val = win0_2.index t (0 : Fin 2) * 256 + p.val; omega
    | ⟨1, _⟩ => show win0_0.index t (1 : Fin 2) * 2048 + 1 * k.val = k.val; omega
  -- the panel block's column q is column 1024·j + q of the panel array, whole
  have h1 : ∀ k : Fin 2048, iblk0 V c 1 t (ix2 k q)
      = V c main_v24 (ix2 k (⟨win0_2.index t (1 : Fin 2) * 1024 + q.val, by omega⟩ : Fin 8192)) := by
    intro k
    have hk : k.val < 2048 := k.isLt
    show V c main_v24 (((cfg0.win 1).blk t).view.emb (ix2 k q)) = _
    refine congrArg (V c main_v24) (funext fun a => Fin.ext ?_)
    match a with
    | ⟨0, _⟩ => show win0_1.index t (0 : Fin 2) * 2048 + 1 * k.val = k.val; omega
    | ⟨1, _⟩ => show win0_1.index t (1 : Fin 2) * 1024 + 1 * q.val = win0_2.index t (1 : Fin 2) * 1024 + q.val; omega
  rw [h0]
  exact congrArg silu (Finset.sum_congr rfl fun k _ => congrArg (_ * ·) (h1 k))

/-- An index of the hidden array is in point t's block iff each coordinate is in the block's range on its axis. -/
theorem gate_mem_blk (t : Fin cfg0.N) (i : S16384x8192.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v27).slice (win0_2.rect t)).set ↔ _
  rw [View.set_slice_whole, Rect.mem_set_unit]
  exact Iff.rfl

/-- The 512 blocks cover the hidden array: entry (r, f) is in the block of point (r / 256) · 8 + f / 1024. -/
theorem gate_cover (i : S16384x8192.Idx) :
    ∃ t : Fin cfg0.N, (cfg0.win 2).flush t = true ∧ i ∈ ((cfg0.win 2).blk t).view.set := by
  have hi0 : (i 0).val < 16384 := (i 0).isLt
  have hi1 : (i 1).val < 8192 := (i 1).isLt
  have hN : cfg0.N = 512 := N_0
  let t : Fin cfg0.N := ⟨(i 0).val / 256 * 8 + (i 1).val / 1024, by omega⟩
  obtain ⟨q0, q1⟩ := gate_idx_out t
  have tv : t.val = (i 0).val / 256 * 8 + (i 1).val / 1024 := rfl
  refine ⟨t, flush0_2 t, ?_⟩
  rw [gate_mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1024 ≤ (i 1).val ∧ (i 1).val < win0_2.index t (1 : Fin 2) * 1024 + 1024
    omega

/-- The hidden array after the region: the one function of the region's two input arrays. -/
theorem gate_final (c : Dev nD) : (dat0 V c).arrAt 2 cfg0.N = gateArr (V c main_v0) (V c main_v24) :=
  (dat0 V c).arrAt_eq_of_cover 2 (gateArr (V c main_v0) (V c main_v24)) (fun t _ => gate_flushed_eq V c t) gate_cover

end Cert.QuantFfn.Kernel

end
-- ==== Proof.DownBody.lean ====
/-
  The down kernel's stored block, read at an index.

  One grid point loads a block of 256 hidden rows (all 8192 hidden coordinates of each, so the row's largest
  magnitude is again taken over the whole row) and an 8192 × 256 panel of the second weight matrix, already
  quantised and transposed. The rows are put on the 8-bit grid and multiplied with the panel into a zero
  accumulator: entry (p, q) of the stored block is ∑_f Q(row p)(f) · panel(f, q).
-/
import proofs.«159230_j29678224016194_1_alg».proof.Proof.GateBody

noncomputable section

namespace Cert.QuantFfn.Kernel

open Idealize.ShloMosaic Idealize.ShloMosaic.ValueIdx Cert.KernelIdeal Cert.KernelIdeal.Gen Cert.QuantFfn Cert.LibAxisMax

variable [Cert.KernelIdeal.Facts]

/-- The stored block is the product of the quantised rows with the panel. -/
theorem down_pay_eq (x0 : FVec Ideal S256x8192 .bf16) (x1 : FVec Ideal S8192x256 .bf16) :
    k1_pay1 (F := Ideal) x0 x1
      = matmul dot_S256x8192_S8192x256_S256x256_1_0_0_1_n_n none
          (truncf .bf16 (rowsQuant (extf .f32 (shapeCast S256x8192 x0 Gen.shapeCasts_S256x8192_S256x8192) Gen.bitsLt_bf16_f32)
            (rowScales (extf .f32 (shapeCast S256x8192 x0 Gen.shapeCasts_S256x8192_S256x8192) Gen.bitsLt_bf16_f32)
              Gen.reduces_S256x8192_S256 Gen.shapeCasts_S256_S256x1)
            Gen.broadcasts_S256x1_S256x8192) Gen.bitsLt_bf16_f32)
          (shapeCast S8192x256 x1 Gen.shapeCasts_S8192x256_S8192x256) (constant S256x256 .f32 0x00000000#32) := rfl

/-- The product into the zero accumulator, at (p, q). -/
theorem product_apply (Q : FVec Ideal S256x8192 .bf16) (W : FVec Ideal S8192x256 .bf16) (p q : Fin 256) :
    matmul dot_S256x8192_S8192x256_S256x256_1_0_0_1_n_n none Q W (constant S256x256 .f32 0x00000000#32) (ix2 p q)
      = ∑ f : Fin 8192, Q (ix2 p f) * W (ix2 f q) :=
  Cert.LibMatmulPlain.matmul_zero_apply none Q W p q

/-- Entry (p, q) of the block the down kernel stores: the quantised hidden row p against column q of the panel. -/
theorem down_pay_apply (x0 : FVec Ideal S256x8192 .bf16) (x1 : FVec Ideal S8192x256 .bf16) (p : Fin 256) (q : Fin 256) :
    k1_pay1 (F := Ideal) x0 x1 (ix2 p q)
      = ∑ f : Fin 8192, tokQuant (fun f => x0 (ix2 p f)) f * x1 (ix2 f q) := by
  rw [down_pay_eq, product_apply]
  simp only [shapeCast_self]
  refine Finset.sum_congr rfl fun f _ => congrArg (· * x1 (ix2 f q)) ?_
  rw [truncf_apply]
  exact rowsQuant_rowScales_apply (n := 256) (d := 8192) (extf .f32 x0 Gen.bitsLt_bf16_f32) Gen.reduces_S256x8192_S256
    Gen.shapeCasts_S256_S256x1 Gen.broadcasts_S256x1_S256x8192 p f

end Cert.QuantFfn.Kernel

end
-- ==== Proof.DownArray.lean ====
/-
  The down region's output array as one function of its two input arrays.

  The grid is again 64 × 8: point (i, j) reads rows 256·i … 256·i + 255 of the hidden array (all 8192 columns) and
  columns 256·j … 256·j + 255 of the second weight panel array (all 8192 rows), and writes block (i, j) of the
  16384 × 2048 output. Entry (r, d) depends on row r of the hidden array and column d of the panels only, so every
  block is the restriction of one function of the two arrays, and the 512 blocks tile the output.
-/
import proofs.«159230_j29678224016194_1_alg».proof.Proof.Gen.KernelIdeal.Frame
import proofs.«159230_j29678224016194_1_alg».proof.Proof.DownBody
import Idealize.ShloMosaic.Lib.Pipeline.Value

set_option maxRecDepth 16384

noncomputable section

namespace Cert.QuantFfn.Kernel

open Idealize.ShloMosaic Idealize.ShloMosaic.ValueIdx Idealize.ShloMosaic.TcCoe Idealize.SL.Sem
open Cert.KernelIdeal Cert.KernelIdeal.Gen Cert.QuantFfn
open Idealize.ShloMosaic.Pipeline (Dat Cfg Window)

/-- The output rows: entry (r, d) is the quantised hidden row r against column d of the panels. -/
def downArr (H : S16384x8192.Idx → EReal) (B : S8192x2048.Idx → EReal) : S16384x2048.Idx → EReal :=
  fun i => ∑ f : Fin 8192, tokQuant (fun f => H (ix2 (i 0) f)) f * B (ix2 f (i 1))

theorem downArr_apply (H : S16384x8192.Idx → EReal) (B : S8192x2048.Idx → EReal) (r : Fin 16384) (d : Fin 2048) :
    downArr H B (ix2 r d) = ∑ f : Fin 8192, tokQuant (fun f => H (ix2 r f)) f * B (ix2 f d) := rfl

variable (V : (c : Dev nD) → (b : Ref sig .tc) → Buf (Elt Ideal) ((c : Thread nD τ).loc b))

theorem hz' : (![0, 0] : Fin 2 → Nat) = fun _ => 0 := funext fun a => by fin_cases a <;> rfl

/-- The three index maps over the grid: the hidden window moves with the output's row block and stays at column
    block 0; the panel window stays at row block 0 and moves with the output's column block; the output's block at
    point t is (t / 8, t % 8). -/
theorem down_idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) = t.val / 8 ∧ win1_2.index t (1 : Fin 2) = t.val % 8 :=
  (by decide +kernel : ∀ t : Fin grid1.N, _)

/-- What point t writes back is block t of the output rows. -/
theorem down_flushed_eq (c : Dev nD) (t : Fin cfg1.N) :
    (dat1 V c).flushed 2 t = ((cfg1.win 2).blk t).view.read (Elt Ideal) (downArr (V c main_v27) (V c main_v26)) := by
  show (cfg1.win 2).cut (grid1.coords t) ((dat1 V c).after 2 t) = _
  rw [after1_2]
  unfold out1_2
  rw [View.canon_unit_zero hz']
  simp only [View.ld_unit_zero (S := S256x8192) hz', View.ld_unit_zero (S := S8192x256) hz']
  obtain ⟨e0, e1, e2, e3, e4, e5⟩ := down_idx_facts t
  have hN : cfg1.N = 512 := N_1
  have ht : t.val < 512 := hN ▸ t.isLt
  funext j
  obtain ⟨p, q, rfl⟩ : ∃ (p : Fin 256) (q : Fin 256), j = ix2 p q := ⟨j 0, j 1, eq_ix2 j⟩
  have hp : p.val < 256 := p.isLt
  have hq : q.val < 256 := q.isLt
  show k1_pay1 (iblk1 V c 0 t) (iblk1 V c 1 t) (ix2 p q)
    = downArr (V c main_v27) (V c main_v26) (((cfg1.win 2).blk t).view.emb (ix2 p q))
  rw [down_pay_apply]
  -- where the entry sits in the output rows
  have hr : ((cfg1.win 2).blk t).view.emb (ix2 p q)
      = ix2 (⟨win1_2.index t (0 : Fin 2) * 256 + p.val, by omega⟩ : Fin 16384) (⟨win1_2.index t (1 : Fin 2) * 256 + q.val, by omega⟩ : Fin 2048) := by
    funext a; apply Fin.ext
    match a with
    | ⟨0, _⟩ => show win1_2.index t (0 : Fin 2) * 256 + 1 * p.val = win1_2.index t (0 : Fin 2) * 256 + p.val; omega
    | ⟨1, _⟩ => show win1_2.index t (1 : Fin 2) * 256 + 1 * q.val = win1_2.index t (1 : Fin 2) * 256 + q.val; omega
  rw [hr, downArr_apply]
  -- the hidden block's row p is row 256·i + p of the hidden array, whole
  have h0 : (fun f : Fin 8192 => iblk1 V c 0 t (ix2 p f))
      = fun f : Fin 8192 => V c main_v27 (ix2 (⟨win1_2.index t (0 : Fin 2) * 256 + p.val, by omega⟩ : Fin 16384) f) := by
    funext f
    have hf : f.val < 8192 := f.isLt
    show V c main_v27 (((cfg1.win 0).blk t).view.emb (ix2 p f)) = _
    refine congrArg (V c main_v27) (funext fun a => Fin.ext ?_)
    match a with
    | ⟨0, _⟩ => show win1_0.index t (0 : Fin 2) * 256 + 1 * p.val = win1_2.index t (0 : Fin 2) * 256 + p.val; omega
    | ⟨1, _⟩ => show win1_0.index t (1 : Fin 2) * 8192 + 1 * f.val = f.val; omega
  -- the panel block's column q is column 256·j + q of the panel array, whole
  have h1 : ∀ f : Fin 8192, iblk1 V c 1 t (ix2 f q)
      = V c main_v26 (ix2 f (⟨win1_2.index t (1 : Fin 2) * 256 + q.val, by omega⟩ : Fin 2048)) := by
    intro f
    have hf : f.val < 8192 := f.isLt
    show V c main_v26 (((cfg1.win 1).blk t).view.emb (ix2 f q)) = _
    refine congrArg (V c main_v26) (funext fun a => Fin.ext ?_)
    match a with
    | ⟨0, _⟩ => show win1_1.index t (0 : Fin 2) * 8192 + 1 * f.val = f.val; omega
    | ⟨1, _⟩ => show win1_1.index t (1 : Fin 2) * 256 + 1 * q.val = win1_2.index t (1 : Fin 2) * 256 + q.val; omega
  rw [h0]
  exact Finset.sum_congr rfl fun f _ => congrArg (_ * ·) (h1 f)

/-- An index of the output rows is in point t's block iff each coordinate is in the block's range on its axis. -/
theorem down_mem_blk (t : Fin cfg1.N) (i : S16384x2048.Idx) :
    i ∈ ((cfg1.win 2).blk t).view.set ↔ ∀ a : Fin 2, win1_2.index t a * S256x256.size a ≤ (i a).val
      ∧ (i a).val < win1_2.index t a * S256x256.size a + S256x256.size a := by
  show i ∈ ((View.whole main_v28).slice (win1_2.rect t)).set ↔ _
  rw [View.set_slice_whole, Rect.mem_set_unit]
  exact Iff.rfl

/-- The 512 blocks cover the output rows: entry (r, d) is in the block of point (r / 256) · 8 + d / 256. -/
theorem down_cover (i : S16384x2048.Idx) :
    ∃ t : Fin cfg1.N, (cfg1.win 2).flush t = true ∧ i ∈ ((cfg1.win 2).blk t).view.set := by
  have hi0 : (i 0).val < 16384 := (i 0).isLt
  have hi1 : (i 1).val < 2048 := (i 1).isLt
  have hN : cfg1.N = 512 := N_1
  let t : Fin cfg1.N := ⟨(i 0).val / 256 * 8 + (i 1).val / 256, by omega⟩
  obtain ⟨-, -, -, -, q0, q1⟩ := down_idx_facts t
  have tv : t.val = (i 0).val / 256 * 8 + (i 1).val / 256 := rfl
  refine ⟨t, flush1_2 t, ?_⟩
  rw [down_mem_blk]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 256 ≤ (i 1).val ∧ (i 1).val < win1_2.index t (1 : Fin 2) * 256 + 256
    omega

/-- The output rows after the region: the one function of the region's two input arrays. -/
theorem down_final (c : Dev nD) : (dat1 V c).arrAt 2 cfg1.N = downArr (V c main_v27) (V c main_v26) :=
  (dat1 V c).arrAt_eq_of_cover 2 (downArr (V c main_v27) (V c main_v26)) (fun t _ => down_flushed_eq V c t) down_cover

end Cert.QuantFfn.Kernel

end
-- ==== Proof.LibMergeSplit.lean ====
/-
  Shape casts that merge or split axes, read at an index.  A shape cast keeps the row-major position, so
    • [a, b, c] cast to [a·b, c] (points × neighbours flattened into rows) reads at (r, j), r = i·b + k, the entry (i, k, j), and
      the cast back reads at (i, k, j) the entry (i·b + k, j);
    • [.., n] with n = g·s cast to [.., g, s] (the channels laid out as groups) reads at (.., l, r) the entry (.., l·s + r), and
      the cast back reads at (.., m), m = l·s + r, the entry (.., l, r);
  stated with the row or channel number as a hypothesis (no quotient or remainder in the statement), generic in every extent and
  in the element type.
-/
import Idealize.ShloMosaic.Lib.Pipeline.Value
import Idealize.ShloMosaic.Lib.ValueIdx

noncomputable section

namespace LibMergeSplit

open Idealize.ShloMosaic Idealize.ShloMosaic.ValueIdx

variable {α : Type}

/-! ## Two leading axes merged into rows, and split again -/

/-- [a, b, c] cast to [n, c], n = a·b: row i·b + k holds (i, k, ·). -/
theorem merge_rows_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- [n, c], n = a·b, cast to [a, b, c]: (i, k, ·) holds row i·b + k. -/
theorem split_rows_apply {a b c n : ℕ} (y : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ y h (ix3 i k j) = y (ix2 r j) :=
  shapeCast_apply y h _ _ (by
    rw [Shape.rowMajor_val_three, Shape.rowMajor_val_two]
    show r.val * c + j.val = (i.val * b + k.val) * c + j.val
    rw [hr])

/-- The row i·b + k of an [a·b, ·] array is in range. -/
theorem row_lt {a b : ℕ} (i : Fin a) (k : Fin b) : i.val * b + k.val < a * b := by
  have hi := i.isLt
  have hk := k.isLt
  calc i.val * b + k.val < i.val * b + b := Nat.add_lt_add_left hk _
    _ = (i.val + 1) * b := by rw [Nat.add_mul, Nat.one_mul]
    _ ≤ a * b := Nat.mul_le_mul_right _ hi

/-! ## The last axis split into groups, and merged again -/

/-- [a, b, c, n] with n = g·s cast to [a, b, c, g, s]: (.., l, r) holds channel l·s + r. -/
theorem split_last4_apply {a b c n g s : ℕ} (x : (⟨4, ![a, b, c, n]⟩ : Shape).Idx → α)
    (h : (⟨4, ![a, b, c, n]⟩ : Shape).ShapeCasts ⟨5, ![a, b, c, g, s]⟩) (hn : n = g * s)
    (i : Fin a) (p : Fin b) (q : Fin c) (l : Fin g) (r : Fin s) (m : Fin n) (hm : m.val = l.val * s + r.val) :
    shapeCast ⟨5, ![a, b, c, g, s]⟩ x h (ix5 i p q l r) = x (ix4 i p q m) :=
  shapeCast_apply x h _ _ (by
    rw [Shape.rowMajor_val_four, Shape.rowMajor_val_five]
    show ((i.val * b + p.val) * c + q.val) * n + m.val = (((i.val * b + p.val) * c + q.val) * g + l.val) * s + r.val
    rw [hm, hn]; ring)

/-- [a, b, c, g, s] cast to [a, b, c, n] with n = g·s: channel l·s + r holds (.., l, r). -/
theorem merge_last5_apply {a b c n g s : ℕ} (y : (⟨5, ![a, b, c, g, s]⟩ : Shape).Idx → α)
    (h : (⟨5, ![a, b, c, g, s]⟩ : Shape).ShapeCasts ⟨4, ![a, b, c, n]⟩) (hn : n = g * s)
    (i : Fin a) (p : Fin b) (q : Fin c) (l : Fin g) (r : Fin s) (m : Fin n) (hm : m.val = l.val * s + r.val) :
    shapeCast ⟨4, ![a, b, c, n]⟩ y h (ix4 i p q m) = y (ix5 i p q l r) :=
  shapeCast_apply y h _ _ (by
    rw [Shape.rowMajor_val_four, Shape.rowMajor_val_five]
    show (((i.val * b + p.val) * c + q.val) * g + l.val) * s + r.val = ((i.val * b + p.val) * c + q.val) * n + m.val
    rw [hm, hn]; ring)

/-- [a, b, n] with n = g·s cast to [a, b, g, s]: (.., l, r) holds channel l·s + r. -/
theorem split_last3_apply {a b n g s : ℕ} (x : (⟨3, ![a, b, n]⟩ : Shape).Idx → α)
    (h : (⟨3, ![a, b, n]⟩ : Shape).ShapeCasts ⟨4, ![a, b, g, s]⟩) (hn : n = g * s)
    (i : Fin a) (p : Fin b) (l : Fin g) (r : Fin s) (m : Fin n) (hm : m.val = l.val * s + r.val) :
    shapeCast ⟨4, ![a, b, g, s]⟩ x h (ix4 i p l r) = x (ix3 i p m) :=
  shapeCast_apply x h _ _ (by
    rw [Shape.rowMajor_val_three, Shape.rowMajor_val_four]
    show (i.val * b + p.val) * n + m.val = ((i.val * b + p.val) * g + l.val) * s + r.val
    rw [hm, hn]; ring)

/-- [a, b, g, s] cast to [a, b, n] with n = g·s: channel l·s + r holds (.., l, r). -/
theorem merge_last4_apply {a b n g s : ℕ} (y : (⟨4, ![a, b, g, s]⟩ : Shape).Idx → α)
    (h : (⟨4, ![a, b, g, s]⟩ : Shape).ShapeCasts ⟨3, ![a, b, n]⟩) (hn : n = g * s)
    (i : Fin a) (p : Fin b) (l : Fin g) (r : Fin s) (m : Fin n) (hm : m.val = l.val * s + r.val) :
    shapeCast ⟨3, ![a, b, n]⟩ y h (ix3 i p m) = y (ix4 i p l r) :=
  shapeCast_apply y h _ _ (by
    rw [Shape.rowMajor_val_three, Shape.rowMajor_val_four]
    show ((i.val * b + p.val) * g + l.val) * s + r.val = (i.val * b + p.val) * n + m.val
    rw [hm, hn]; ring)

/-- The channel l·s + r of a group layout is in range. -/
theorem chan_lt {g s : ℕ} (l : Fin g) (r : Fin s) : l.val * s + r.val < g * s := row_lt l r

end LibMergeSplit

end
-- ==== Proof.HostValues.lean ====
/-
  The kernel program's host prologue, read at an index on the extended reals.

  Before the first kernel the host reshapes the tokens [4, 4096, 2048] into rows [16384, 2048] — row b·4096 + s is
  token (b, s) — and quantises each weight matrix: the scale is 1 over the mean magnitude (the total of the
  magnitudes, accumulated from the zero word, over 2²⁴ entries), at least ε; each weight is scaled, rounded to the
  nearest integer with ties to even, limited to [-1, 1] and scaled back. The quantised matrix is then transposed
  and converted to the 16-bit format, which on the extended reals changes nothing. So the kernel's weight
  operand at (k, f) is the quantised weight (f, k) of the matrix it came from.
-/
import proofs.«159230_j29678224016194_1_alg».proof.Proof.Gen.KernelIdeal.Frame
import proofs.«159230_j29678224016194_1_alg».proof.Proof.Gen.KernelIdeal.Launch
import proofs.«159230_j29678224016194_1_alg».proof.Proof.Spec
import proofs.«159230_j29678224016194_1_alg».proof.Proof.LibMergeSplit
import Idealize.ShloMosaic.Lib.StableHlo.Run
import Idealize.ShloMosaic.Lib.Pipeline.Value
import Idealize.ShloMosaic.Lib.ValueIdx
import Idealize.ShloMosaic.PureOps.Ideal.Laws

noncomputable section

namespace Cert.QuantFfn.Kernel

open Cert.KernelIdeal Cert.KernelIdeal.Gen Idealize.ShloMosaic Idealize.ShloMosaic.ValueIdx Idealize.ShloMosaic.TcCoe Idealize.SL.Sem Cert.QuantFfn
open Idealize.ShloMosaic.StableHlo

/-! ## The host's quantisation of a weight matrix, as functions of its contents -/

/-- The scale of a matrix as the host computes it, a scalar array: 1 / max(total |w| / 2²⁴, ε). -/
def hostScale {S : Shape} {axes : List (Fin S.rank)} (x : FVec Ideal S .f32) (h : S.ReducesTo axes S_) :
    FVec Ideal S_ .f32 :=
  Host.divf (F := Ideal) (constant (F := Ideal) S_ .f32 0x3F800000#32)
    (maximumf
      (Host.divf (F := Ideal)
        (Host.reduceAdd (F := Ideal) (Host.absf x) (constant (F := Ideal) S_ .f32 0x00000000#32) h Gen.h_S_)
        (constant (F := Ideal) S_ .f32 0x4B800000#32))
      (constant (F := Ideal) S_ .f32 0x3727C5AC#32))

/-- A matrix on the ternary grid with the scalar array `sc` as its scale, as the host computes it: scaled, rounded,
    limited below by -1 and above by 1, scaled back. -/
def hostQuant {S : Shape} (x : FVec Ideal S .f32) (sc : FVec Ideal S_ .f32)
    (hb : S_.BroadcastsInDim S (![] : Fin 0 → Fin S.rank)) : FVec Ideal S .f32 :=
  Host.divf (F := Ideal)
    (minimumf (broadcastInDim S ![] hb (id (constant (F := Ideal) S_ .f32 0x3F800000#32)))
      (maximumf (broadcastInDim S ![] hb (id (constant (F := Ideal) S_ .f32 0xBF800000#32)))
        (Host.roundeven (mulf x (broadcastInDim S ![] hb sc)))))
    (broadcastInDim S ![] hb sc)

/-- The host's scale is the weight scale of the total of the matrix's magnitudes. -/
theorem hostScale_apply {S : Shape} {axes : List (Fin S.rank)} (x : FVec Ideal S .f32) (h : S.ReducesTo axes S_)
    (i : S_.Idx) : hostScale x h i = wScale (absTotal x) := by
  unfold hostScale
  generalize hy : (Host.absf x : FVec Ideal S .f32) = y0
  show Ideal.div wOne (max (Ideal.div (Host.reduceAdd (F := Ideal) y0 (constant (F := Ideal) S_ .f32 0x00000000#32) h Gen.h_S_ i) wCount) wEps) = _
  simp only [Host.reduceAdd, Ideal.hostReduceAdd_def]
  rw [Ideal.hostReduceAdd_total h (fun b => b.elim0) y0 _ i, ← hy]
  rfl

/-- Entry `i` of the quantised matrix: the entry times the scale, rounded, limited, divided by the scale. -/
theorem hostQuant_apply {S : Shape} (x : FVec Ideal S .f32) (sc : FVec Ideal S_ .f32)
    (hb : S_.BroadcastsInDim S (![] : Fin 0 → Fin S.rank)) (i : S.Idx) :
    hostQuant x sc hb i = Ideal.div (min wOne (max wNegOne (rne (x i * sc ix0)))) (sc ix0) := by
  have hbc : ∀ v : FVec Ideal S_ .f32, broadcastInDim S ![] hb v i = v ix0 :=
    fun v => broadcastInDim_apply _ hb v i ix0 (fun a => a.elim0)
  show Ideal.div (min (broadcastInDim S ![] hb (id (constant (F := Ideal) S_ .f32 0x3F800000#32)) i)
      (max (broadcastInDim S ![] hb (id (constant (F := Ideal) S_ .f32 0xBF800000#32)) i)
        (rne (x i * broadcastInDim S ![] hb sc i)))) (broadcastInDim S ![] hb sc i) = _
  rw [hbc, hbc, hbc]
  rfl

/-- With the matrix's own scale, entry `i` is the quantised weight. -/
theorem hostQuant_hostScale_apply {S : Shape} {axes : List (Fin S.rank)} (x : FVec Ideal S .f32)
    (h : S.ReducesTo axes S_) (hb : S_.BroadcastsInDim S (![] : Fin 0 → Fin S.rank)) (i : S.Idx) :
    hostQuant x (hostScale x h) hb i = wQuant (absTotal x) (x i) := by
  rw [hostQuant_apply, hostScale_apply]
  rfl

/-! ## The buffers the first kernel reads, as the host operations leave them -/

variable (m : (ℓ : Loc nD τ sig) → Buf (Elt Ideal) ℓ) (ρ : Dev nD → PrngReg)

/-- The token rows: the token array shape-cast to [16384, 2048]. -/
theorem V9_main_v0_eq (c : Dev nD) :
    (V9 m ρ c main_v0 : S16384x2048.Idx → EReal)
      = shapeCast S16384x2048 (m ((c : Thread nD τ).loc main_arg0) : S4x4096x2048.Idx → EReal)
          Gen.shapeCasts_S4x4096x2048_S16384x2048 := by
  dsimp only [V9, W9, W8, W7, W6, W5, W4, W3, W2, W1, W0]
  simp only [hostOps0, hostOps0_1, hostOps0_2, hostOps0_3, hostOps0_4, hostOps0_5, hostOps0_6, hostOps0_7, hostOps0_8]
  after_results
  rfl

/-- The first kernel's weight operand: the first matrix quantised, transposed, in the 16-bit format. -/
theorem V9_main_v24_eq (c : Dev nD) :
    (V9 m ρ c main_v24 : S2048x8192.Idx → EReal)
      = truncf .bf16 (transpose S2048x8192 [1, 0]
          (hostQuant (m ((c : Thread nD τ).loc main_arg1) : S8192x2048.Idx → EReal)
            (hostScale (m ((c : Thread nD τ).loc main_arg1) : S8192x2048.Idx → EReal) Gen.reducesTo_S8192x2048_S_d0_1)
            Gen.bcast_S_S8192x2048)
          Gen.transposes_S8192x2048_S2048x8192_1_0) Gen.bitsLt_bf16_f32 := by
  dsimp only [V9, W9, W8, W7, W6, W5, W4, W3, W2, W1, W0]
  simp only [hostOps0, hostOps0_1, hostOps0_2, hostOps0_3, hostOps0_4, hostOps0_5, hostOps0_6, hostOps0_7, hostOps0_8]
  after_results_simp
  rfl

/-- The second kernel's weight operand: the second matrix quantised, transposed, in the 16-bit format. -/
theorem V9_main_v26_eq (c : Dev nD) :
    (V9 m ρ c main_v26 : S8192x2048.Idx → EReal)
      = truncf .bf16 (transpose S8192x2048 [1, 0]
          (hostQuant (m ((c : Thread nD τ).loc main_arg2) : S2048x8192.Idx → EReal)
            (hostScale (m ((c : Thread nD τ).loc main_arg2) : S2048x8192.Idx → EReal) Gen.reducesTo_S2048x8192_S_d0_1)
            Gen.bcast_S_S2048x8192)
          Gen.transposes_S2048x8192_S8192x2048_1_0) Gen.bitsLt_bf16_f32 := by
  dsimp only [V9, W9, W8, W7, W6, W5, W4, W3, W2, W1, W0]
  simp only [hostOps0, hostOps0_1, hostOps0_2, hostOps0_3, hostOps0_4, hostOps0_5, hostOps0_6, hostOps0_7, hostOps0_8]
  after_results_simp
  rfl

/-- Row b·4096 + s of the token rows is token (b, s). -/
theorem V9_main_v0 (c : Dev nD) (b : Fin 4) (s : Fin 4096) (k : Fin 2048) (r : Fin 16384)
    (hr : r.val = b.val * 4096 + s.val) :
    (V9 m ρ c main_v0 : S16384x2048.Idx → EReal) (ix2 r k)
      = (m ((c : Thread nD τ).loc main_arg0) : S4x4096x2048.Idx → EReal) (ix3 b s k) := by
  rw [V9_main_v0_eq]
  exact LibMergeSplit.merge_rows_apply _ _ b s k r hr

/-- The first kernel's weight operand at (k, f) is the quantised weight (f, k) of the first matrix. -/
theorem V9_main_v24 (c : Dev nD) (k : Fin 2048) (f : Fin 8192) :
    (V9 m ρ c main_v24 : S2048x8192.Idx → EReal) (ix2 k f)
      = wQuant (absTotal (m ((c : Thread nD τ).loc main_arg1) : S8192x2048.Idx → EReal))
          ((m ((c : Thread nD τ).loc main_arg1) : S8192x2048.Idx → EReal) (ix2 f k)) := by
  rw [V9_main_v24_eq]
  generalize (m ((c : Thread nD τ).loc main_arg1) : S8192x2048.Idx → EReal) = x1
  rw [truncf_apply]
  refine (transpose_apply [1, 0] _ Gen.transposes_S8192x2048_S2048x8192_1_0 (ix2 k f) (ix2 f k)
    (fun b => match b with | ⟨0, _⟩ => rfl | ⟨1, _⟩ => rfl)).trans ?_
  exact hostQuant_hostScale_apply x1 Gen.reducesTo_S8192x2048_S_d0_1 Gen.bcast_S_S8192x2048 (ix2 f k)

/-- The second kernel's weight operand at (f, d) is the quantised weight (d, f) of the second matrix. -/
theorem V9_main_v26 (c : Dev nD) (f : Fin 8192) (d : Fin 2048) :
    (V9 m ρ c main_v26 : S8192x2048.Idx → EReal) (ix2 f d)
      = wQuant (absTotal (m ((c : Thread nD τ).loc main_arg2) : S2048x8192.Idx → EReal))
          ((m ((c : Thread nD τ).loc main_arg2) : S2048x8192.Idx → EReal) (ix2 d f)) := by
  rw [V9_main_v26_eq]
  generalize (m ((c : Thread nD τ).loc main_arg2) : S2048x8192.Idx → EReal) = x2
  rw [truncf_apply]
  refine (transpose_apply [1, 0] _ Gen.transposes_S2048x8192_S8192x2048_1_0 (ix2 f d) (ix2 d f)
    (fun b => match b with | ⟨0, _⟩ => rfl | ⟨1, _⟩ => rfl)).trans ?_
  exact hostQuant_hostScale_apply x2 Gen.reducesTo_S2048x8192_S_d0_1 Gen.bcast_S_S2048x8192 (ix2 d f)

end Cert.QuantFfn.Kernel

end
-- ==== Proof.KernelValue.lean ====
/-
  The kernel program's result array, index by index.

  The result is the reshape to [4, 4096, 2048] of the down region's output rows; those are the quantised hidden
  rows against the second panel array; the hidden array is what the gate region left, the gated quantised token
  rows against the first panel array; the token rows are the reshape of x, and the two panel arrays are the host's
  quantised and transposed weight matrices. Token (b, s) is row 4096·b + s throughout, and its result depends on its
  own row of x and on the two weight matrices only.
-/
import proofs.«159230_j29678224016194_1_alg».proof.Proof.KernelRun
import proofs.«159230_j29678224016194_1_alg».proof.Proof.GateArray
import proofs.«159230_j29678224016194_1_alg».proof.Proof.DownArray
import proofs.«159230_j29678224016194_1_alg».proof.Proof.HostValues
import proofs.«159230_j29678224016194_1_alg».proof.Proof.LibMergeSplit
import Idealize.ShloMosaic.Lib.StableHlo.Run

set_option maxRecDepth 16384

noncomputable section

namespace Cert.QuantFfn.Kernel

open Idealize.ShloMosaic Idealize.ShloMosaic.ValueIdx Idealize.ShloMosaic.TcCoe Idealize.SL.Sem Idealize.ShloMosaic.StableHlo
open Cert.KernelIdeal Cert.KernelIdeal.Gen Cert.QuantFfn

variable (m : (ℓ : Loc nD τ sig) → Buf (Elt Ideal) ℓ) (ρ : Dev nD → PrngReg)

/-- The result buffer's last contents: the output rows re-laid as [4, 4096, 2048]. -/
theorem W12_main_v29 (c : Dev nD) :
    W12 m ρ c (Proc.devRef .tc main_v29)
      = fun i => shapeCast S4x4096x2048 (W11 m ρ c (Proc.devRef .tc main_v28)) shapeCasts_S16384x2048_S4x4096x2048 i := by
  show StableHlo.after hostOps2 (W11 m ρ c) (Proc.devRef .tc main_v29) = _
  after_results
  rfl

/-- The output rows are what the down region leaves. -/
theorem W11_main_v28 (c : Dev nD) :
    W11 m ρ c (Proc.devRef .tc main_v28) = downArr (V10 m ρ c main_v27) (V10 m ρ c main_v26) :=
  (W11_arr m ρ c 2).trans (down_final (V10 m ρ) c)

/-- The hidden array is what the gate region leaves. -/
theorem V10_main_v27 (c : Dev nD) : V10 m ρ c main_v27 = gateArr (V9 m ρ c main_v0) (V9 m ρ c main_v24) :=
  (W10_arr m ρ c 2).trans (gate_final (V9 m ρ) c)

/-- The second panel array is no array of the gate region: it passes through it. -/
theorem V10_main_v26 (c : Dev nD) : V10 m ρ c main_v26 = V9 m ρ c main_v26 :=
  W10_of_ne m ρ c main_v26 (by decide)

/-- The result buffer's last contents, as an array of extended reals. -/
def resultArr (c : Dev nD) : S4x4096x2048.Idx → EReal := W12 m ρ c (Proc.devRef .tc main_v29)

/-- The down region's output rows, as an array of extended reals. -/
def rowsArr (c : Dev nD) : S16384x2048.Idx → EReal := W11 m ρ c (Proc.devRef .tc main_v28)

theorem resultArr_eq (c : Dev nD) :
    resultArr m ρ c = fun i => shapeCast S4x4096x2048 (rowsArr m ρ c) shapeCasts_S16384x2048_S4x4096x2048 i :=
  W12_main_v29 m ρ c

theorem rowsArr_eq (c : Dev nD) : rowsArr m ρ c = downArr (V10 m ρ c main_v27) (V10 m ρ c main_v26) :=
  W11_main_v28 m ρ c

/-- Row 4096·b + s of the hidden array is the hidden row of token (b, s). -/
theorem hidden_row (c : Dev nD) (b : Fin 4) (s : Fin 4096) (r : Fin 16384) (hr : r.val = b.val * 4096 + s.val) :
    (fun f : Fin 8192 => gateArr (V9 m ρ c main_v0) (V9 m ρ c main_v24) (ix2 r f))
      = hidden (fun k => (m ((c : Thread nD τ).loc main_arg0) : S4x4096x2048.Idx → EReal) (ix3 b s k))
          (absTotal (m ((c : Thread nD τ).loc main_arg1) : S8192x2048.Idx → EReal))
          (fun f k => (m ((c : Thread nD τ).loc main_arg1) : S8192x2048.Idx → EReal) (ix2 f k)) := by
  funext f
  have hx : (fun k : Fin 2048 => (V9 m ρ c main_v0 : S16384x2048.Idx → EReal) (ix2 r k))
      = fun k : Fin 2048 => (m ((c : Thread nD τ).loc main_arg0) : S4x4096x2048.Idx → EReal) (ix3 b s k) :=
    funext fun k => V9_main_v0 m ρ c b s k r hr
  rw [gateArr_apply, hx]
  unfold hidden
  exact congrArg silu (Finset.sum_congr rfl fun k _ => by rw [V9_main_v24 m ρ c k f])

/-- Entry (b, s, d) of the result: token (b, s)'s row of x through the block. -/
theorem result_apply (c : Dev nD) (b : Fin 4) (s : Fin 4096) (d : Fin 2048) :
    resultArr m ρ c (ix3 b s d)
      = out (fun k => (m ((c : Thread nD τ).loc main_arg0) : S4x4096x2048.Idx → EReal) (ix3 b s k))
          (absTotal (m ((c : Thread nD τ).loc main_arg1) : S8192x2048.Idx → EReal))
          (fun f k => (m ((c : Thread nD τ).loc main_arg1) : S8192x2048.Idx → EReal) (ix2 f k))
          (absTotal (m ((c : Thread nD τ).loc main_arg2) : S2048x8192.Idx → EReal))
          (fun d' f => (m ((c : Thread nD τ).loc main_arg2) : S2048x8192.Idx → EReal) (ix2 d' f)) d := by
  have hb := b.isLt
  have hs := s.isLt
  have hrlt : b.val * 4096 + s.val < 16384 := by omega
  have e1 : resultArr m ρ c (ix3 b s d) = rowsArr m ρ c (ix2 (⟨b.val * 4096 + s.val, hrlt⟩ : Fin 16384) d) := by
    rw [resultArr_eq]
    exact LibMergeSplit.split_rows_apply (α := EReal) (a := 4) (b := 4096) (c := 2048) (n := 16384)
      (rowsArr m ρ c) shapeCasts_S16384x2048_S4x4096x2048 b s d ⟨b.val * 4096 + s.val, hrlt⟩ rfl
  rw [e1, rowsArr_eq, downArr_apply, V10_main_v27, V10_main_v26, hidden_row m ρ c b s ⟨b.val * 4096 + s.val, hrlt⟩ rfl]
  unfold out
  exact Finset.sum_congr rfl fun f _ => by rw [V9_main_v26 m ρ c f d]

/-- The kernel program's run: every weakly fair execution terminates with the result buffer at the block of the
    arguments, token by token, and the arguments as launched. -/
theorem run_value : θ_run (defs (F := Ideal)) (onTc (τ := τ) (main (F := Ideal))) ⟨m, fun _ => 0, ρ⟩ (fun r => ∀ c : Dev nD,
      r.2.mem ((c.tc : Thread nD τ).loc main_v29)
        = ffn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (show resultArr m ρ c = _ from funext fun i => by
      obtain ⟨b, s, d, rfl⟩ : ∃ (b : Fin 4) (s : Fin 4096) (d : Fin 2048), i = ix3 b s d := ⟨i 0, i 1, i 2, eq_ix3 i⟩
      exact result_apply m ρ c b s d), (h c).2⟩) (run_result m ρ)

end Cert.QuantFfn.Kernel

end
-- ==== Proof.RefValueX0.lean ====
/-
  The reference program's first quantised operand, read at an index on the extended reals.

  A token's scale is 127 over the largest magnitude of its row (at least ε); the reference clips as max(ε, M),
  which is max(M, ε). Each entry of the row is scaled, rounded to the nearest integer with ties to even, limited
  to [-128, 127] and scaled back, and the operand of the first product is the entry plus the difference between
  that quantised value and the entry.
-/
import proofs.«159230_j29678224016194_1_alg».proof.Proof.RefReadP
import proofs.«159230_j29678224016194_1_alg».proof.Proof.Spec
import proofs.«159230_j29678224016194_1_alg».proof.Proof.LibAxisMax
import Idealize.ShloMosaic.Lib.ValueIdx
import Idealize.ShloMosaic.PureOps.Ideal.Laws

noncomputable section

namespace Cert.QuantFfn.Ref

open Cert.ReferenceIdeal Cert.ReferenceIdeal.Gen Cert.ReferenceIdeal.ReadP Idealize.ShloMosaic Idealize.ShloMosaic.ValueIdx
open Cert.QuantFfn Cert.LibAxisMax

/-! ## The first layer's token scale and quantised row -/

/-- The keepdims axis of a token's maximum is dropped. -/
theorem idx_v2_at (b : Fin 4) (s : Fin 4096) : idx_main_v2 (ix3 b s (0 : Fin 1)) = ix2 b s :=
  funext fun a => Fin.ext (by match a with | ⟨0, _⟩ => rfl | ⟨1, _⟩ => rfl)

/-- A token's scale is read by every entry of its row. -/
theorem idx_v6_at (b : Fin 4) (s : Fin 4096) (k : Fin 2048) : idx_main_v6 (ix3 b s k) = ix3 b s (0 : Fin 1) :=
  funext fun a => Fin.ext (by match a with | ⟨0, _⟩ => rfl | ⟨1, _⟩ => rfl | ⟨2, _⟩ => rfl)

theorem idx_v10_at (b : Fin 4) (s : Fin 4096) (k : Fin 2048) : idx_main_v10 (ix3 b s k) = ix3 b s (0 : Fin 1) :=
  funext fun a => Fin.ext (by match a with | ⟨0, _⟩ => rfl | ⟨1, _⟩ => rfl | ⟨2, _⟩ => rfl)

/-- The maximum along a token's row is the running maximum of the row's magnitudes from -∞. -/
theorem rowMax_v1 (x0 : (⟨S4x4096x2048, .f32⟩ : BufTy).Contents (Elt Ideal)) (b : Fin 4) (s : Fin 4096) :
    val_main_v1 (F := Ideal) x0 (ix2 b s) = foldMax wNegInf fun k : Fin 2048 => eabs (x0 (ix3 b s k)) := by
  unfold val_main_v1
  refine (host_max_last (val_main_v0 (F := Ideal) x0) (val_main_cst (F := Ideal)) reducesTo_S4x4096x2048_S4x4096_d2
    (by decide) h_S_ b s).trans ?_
  rfl

/-- The token scale: 127 over the row's largest magnitude, at least ε. -/
theorem tokScale_v5 (x0 : (⟨S4x4096x2048, .f32⟩ : BufTy).Contents (Elt Ideal)) (b : Fin 4) (s : Fin 4096) :
    val_main_v5 (F := Ideal) x0 (ix3 b s (0 : Fin 1)) = tokScale (fun k => x0 (ix3 b s k)) := by
  rw [val_main_v5_apply, val_main_v4_apply, val_main_cst_1_apply, val_main_v3_apply, val_main_call0_v1_apply,
    val_main_call0_v0_apply, val_main_cst_0_apply, val_main_v2_apply, idx_v2_at, rowMax_v1]
  simp only [Ideal.hostDivf_def, Ideal.maximumf_def, Ideal.ofBits_def]
  rw [max_comm]
  rfl

/-- The first layer's left operand: the entry plus the difference to its quantised value. -/
theorem ste_v13 (x0 : (⟨S4x4096x2048, .f32⟩ : BufTy).Contents (Elt Ideal)) (b : Fin 4) (s : Fin 4096) (k : Fin 2048) :
    val_main_v13 (F := Ideal) x0 (ix3 b s k)
      = ste (x0 (ix3 b s k)) (tokQuant (fun k => x0 (ix3 b s k)) k) := by
  rw [val_main_v13_apply, val_main_v12_apply, val_main_v11_apply, val_main_v10_apply, idx_v10_at,
    val_main_v9_apply, val_main_call2_v4_apply, val_main_call2_v3_apply, val_main_cst_3_apply,
    val_main_call2_v2_apply, val_main_call2_v1_apply, val_main_call2_v0_apply, val_main_cst_2_apply,
    val_main_v8_apply, val_main_v7_apply, val_main_v6_apply, idx_v6_at, tokScale_v5]
  simp only [Ideal.addf_def, Ideal.subf_def, Ideal.hostDivf_def, Ideal.minimumf_def, Ideal.maximumf_def,
    Ideal.mulf_def, Ideal.hostUnary_roundeven_def, Ideal.ofBits_def]
  rfl

end Cert.QuantFfn.Ref

end
-- ==== Proof.RefValueW.lean ====
/-
  The reference program's quantised weight operands, read at an index on the extended reals.

  A matrix's scale is 1 over its mean magnitude (the total of its magnitudes, accumulated from the zero word, over
  the number of entries 2²⁴), at least ε; the reference clips as max(ε, m), which is max(m, ε). Each weight is
  scaled, rounded to the nearest integer with ties to even, limited to [-1, 1] and scaled back, and the operand
  of a product is the weight plus the difference between that quantised value and the weight.
-/
import proofs.«159230_j29678224016194_1_alg».proof.Proof.RefReadP
import proofs.«159230_j29678224016194_1_alg».proof.Proof.Spec
import Idealize.ShloMosaic.Lib.ValueIdx
import Idealize.ShloMosaic.PureOps.Ideal.Laws

noncomputable section

namespace Cert.QuantFfn.Ref

open Cert.ReferenceIdeal Cert.ReferenceIdeal.Gen Cert.ReferenceIdeal.ReadP Idealize.ShloMosaic Idealize.ShloMosaic.ValueIdx
open Cert.QuantFfn Cert.LibAxisMax

/-! ## The two weight matrices' scales and quantised entries -/

/-- The first matrix's scale: 1 over its mean magnitude, at least ε. -/
theorem wScale_v18 (x1 : (⟨S8192x2048, .f32⟩ : BufTy).Contents (Elt Ideal)) (i : S_.Idx) :
    val_main_v18 (F := Ideal) x1 i = wScale (absTotal x1) := by
  rw [val_main_v18_apply, val_main_cst_7_apply, val_main_v17_apply, val_main_call3_v0_apply, val_main_cst_6_apply,
    val_main_v16_apply, val_main_cst_5_apply, val_main_v15_apply, val_main_cst_4_apply]
  simp only [val_main_v14_apply, Ideal.hostDivf_def, Ideal.maximumf_def, Ideal.ofBits_def, Ideal.hostAbsf_def,
    Ideal.absf_def]
  rw [max_comm]
  rfl

/-- The first layer's right operand: the weight plus the difference to its quantised value. -/
theorem ste_v26 (x1 : (⟨S8192x2048, .f32⟩ : BufTy).Contents (Elt Ideal)) (i : S8192x2048.Idx) :
    val_main_v26 (F := Ideal) x1 i = ste (x1 i) (wQuant (absTotal x1) (x1 i)) := by
  rw [val_main_v26_apply, val_main_v25_apply, val_main_v24_apply, val_main_v23_apply, wScale_v18,
    val_main_v22_apply, val_main_call5_v4_apply, val_main_call5_v3_apply, val_main_cst_9_apply,
    val_main_call5_v2_apply, val_main_call5_v1_apply, val_main_call5_v0_apply, val_main_cst_8_apply,
    val_main_v21_apply, val_main_v20_apply, val_main_v19_apply, wScale_v18]
  simp only [Ideal.addf_def, Ideal.subf_def, Ideal.hostDivf_def, Ideal.minimumf_def, Ideal.maximumf_def,
    Ideal.mulf_def, Ideal.hostUnary_roundeven_def, Ideal.ofBits_def]
  rfl

/-- The second matrix's scale. -/
theorem wScale_v47 (x2 : (⟨S2048x8192, .f32⟩ : BufTy).Contents (Elt Ideal)) (i : S_.Idx) :
    val_main_v47 (F := Ideal) x2 i = wScale (absTotal x2) := by
  rw [val_main_v47_apply, val_main_cst_18_apply, val_main_v46_apply, val_main_call10_v0_apply, val_main_cst_17_apply,
    val_main_v45_apply, val_main_cst_16_apply, val_main_v44_apply, val_main_cst_15_apply]
  simp only [val_main_v43_apply, Ideal.hostDivf_def, Ideal.maximumf_def, Ideal.ofBits_def, Ideal.hostAbsf_def,
    Ideal.absf_def]
  rw [max_comm]
  rfl

/-- The second layer's right operand. -/
theorem ste_v55 (x2 : (⟨S2048x8192, .f32⟩ : BufTy).Contents (Elt Ideal)) (i : S2048x8192.Idx) :
    val_main_v55 (F := Ideal) x2 i = ste (x2 i) (wQuant (absTotal x2) (x2 i)) := by
  rw [val_main_v55_apply, val_main_v54_apply, val_main_v53_apply, val_main_v52_apply, wScale_v47,
    val_main_v51_apply, val_main_call12_v4_apply, val_main_call12_v3_apply, val_main_cst_20_apply,
    val_main_call12_v2_apply, val_main_call12_v1_apply, val_main_call12_v0_apply, val_main_cst_19_apply,
    val_main_v50_apply, val_main_v49_apply, val_main_v48_apply, wScale_v47]
  simp only [Ideal.addf_def, Ideal.subf_def, Ideal.hostDivf_def, Ideal.minimumf_def, Ideal.maximumf_def,
    Ideal.mulf_def, Ideal.hostUnary_roundeven_def, Ideal.ofBits_def]
  rfl

end Cert.QuantFfn.Ref

end
-- ==== Proof.RefValueHidden.lean ====
/-
  The reference program's hidden row, read at an index on the extended reals.

  The first product at (b, s, f) is the sum over k of the quantised-difference operands of the token's row and of
  row f of the first matrix. The reference spells the gated unit v · σ(v) as v · (1 / (1 + e⁻ᵛ)) with the f32 word
  of 1, which is 1.
-/
import proofs.«159230_j29678224016194_1_alg».proof.Proof.RefValueX0
import proofs.«159230_j29678224016194_1_alg».proof.Proof.RefValueW
import Idealize.ShloMosaic.Lib.IdealHost

noncomputable section

namespace Cert.QuantFfn.Ref

open Cert.ReferenceIdeal Cert.ReferenceIdeal.Gen Cert.ReferenceIdeal.ReadP Idealize.ShloMosaic Idealize.ShloMosaic.ValueIdx
open Cert.QuantFfn Cert.LibAxisMax

/-! ## The hidden row -/

/-- The first product contracts the row's last axis … -/
theorem lidx_v27_at (b : Fin 4) (s : Fin 4096) (f : Fin 8192) (k : Fin 2048) :
    lidx_main_v27 (ix3 b s f) k = ix3 b s k :=
  funext fun a => Fin.ext (by match a with | ⟨0, _⟩ => rfl | ⟨1, _⟩ => rfl | ⟨2, _⟩ => rfl)

/-- … against the matrix's last axis. -/
theorem ridx_v27_at (b : Fin 4) (s : Fin 4096) (f : Fin 8192) (k : Fin 2048) :
    ridx_main_v27 (ix3 b s f) k = ix2 f k :=
  funext fun a => Fin.ext (by match a with | ⟨0, _⟩ => rfl | ⟨1, _⟩ => rfl)

/-- The first product at (b, s, f): the sum over k of the two operands. -/
theorem dot_v27 (x0 : (⟨S4x4096x2048, .f32⟩ : BufTy).Contents (Elt Ideal)) (x1 : (⟨S8192x2048, .f32⟩ : BufTy).Contents (Elt Ideal))
    (b : Fin 4) (s : Fin 4096) (f : Fin 8192) :
    val_main_v27 (F := Ideal) x0 x1 (ix3 b s f)
      = ∑ k : Fin 2048, ste (x0 (ix3 b s k)) (tokQuant (fun k => x0 (ix3 b s k)) k)
          * ste (x1 (ix2 f k)) (wQuant (absTotal x1) (x1 (ix2 f k))) := by
  rw [val_main_v27_apply]
  refine Finset.sum_congr rfl fun k _ => ?_
  rw [lidx_v27_at, ridx_v27_at, ste_v13, ste_v26]

/-- The reference spells the gated unit as v · (1 / (1 + e⁻ᵛ)), the ones the word of 1. -/
theorem silu_spelt (v : EReal) :
    v * Ideal.div (Ideal.ofBits .f32 0x3F800000#32) (Ideal.ofBits .f32 0x3F800000#32 + Ideal.exp (-v)) = silu v := by
  rw [Ideal.ofBits_one_f32]
  rfl

/-- The hidden row at (b, s, f). -/
theorem hidden_v28 (x0 : (⟨S4x4096x2048, .f32⟩ : BufTy).Contents (Elt Ideal)) (x1 : (⟨S8192x2048, .f32⟩ : BufTy).Contents (Elt Ideal))
    (b : Fin 4) (s : Fin 4096) (f : Fin 8192) :
    val_main_v28 (F := Ideal) x0 x1 (ix3 b s f)
      = refHidden (fun k => x0 (ix3 b s k)) (absTotal x1) (fun f k => x1 (ix2 f k)) f := by
  rw [val_main_v28_apply, val_main_call6_v5_apply, val_main_call6_v4_apply, val_main_call6_cst_0_apply,
    val_main_call6_v3_apply, val_main_call6_v2_apply, val_main_call6_cst_apply, val_main_call6_v1_apply,
    val_main_call6_v0_apply, dot_v27]
  simp only [Ideal.mulf_def, Ideal.hostDivf_def, Ideal.addf_def, Ideal.hostUnary_exp_def, Ideal.hostNegf_def,
    Ideal.negf_def, Ideal.ofBits_def]
  exact silu_spelt _

end Cert.QuantFfn.Ref

end
-- ==== Proof.RefValueH2.lean ====
/-
  The reference program's second quantised operand, read at an index on the extended reals.

  The hidden row of a token is scaled by 127 over its largest magnitude (at least ε), rounded to the nearest
  integer with ties to even, limited to [-128, 127] and scaled back; the operand of the second product is the
  hidden entry plus the difference between that quantised value and the entry.
-/
import proofs.«159230_j29678224016194_1_alg».proof.Proof.RefValueHidden
import proofs.«159230_j29678224016194_1_alg».proof.Proof.LibAxisMax

noncomputable section

namespace Cert.QuantFfn.Ref

open Cert.ReferenceIdeal Cert.ReferenceIdeal.Gen Cert.ReferenceIdeal.ReadP Idealize.ShloMosaic Idealize.ShloMosaic.ValueIdx
open Cert.QuantFfn Cert.LibAxisMax

/-! ## The second layer's token scale and quantised hidden row -/

/-- The keepdims axis of a hidden row's maximum is dropped. -/
theorem idx_v31_at (b : Fin 4) (s : Fin 4096) : idx_main_v31 (ix3 b s (0 : Fin 1)) = ix2 b s :=
  funext fun a => Fin.ext (by match a with | ⟨0, _⟩ => rfl | ⟨1, _⟩ => rfl)

/-- A hidden row's scale is read by every entry of the row. -/
theorem idx_v35_at (b : Fin 4) (s : Fin 4096) (f : Fin 8192) : idx_main_v35 (ix3 b s f) = ix3 b s (0 : Fin 1) :=
  funext fun a => Fin.ext (by match a with | ⟨0, _⟩ => rfl | ⟨1, _⟩ => rfl | ⟨2, _⟩ => rfl)

theorem idx_v39_at (b : Fin 4) (s : Fin 4096) (f : Fin 8192) : idx_main_v39 (ix3 b s f) = ix3 b s (0 : Fin 1) :=
  funext fun a => Fin.ext (by match a with | ⟨0, _⟩ => rfl | ⟨1, _⟩ => rfl | ⟨2, _⟩ => rfl)

/-- The maximum along a hidden row is the running maximum of the row's magnitudes from -∞. -/
theorem rowMax_v30 (x0 : (⟨S4x4096x2048, .f32⟩ : BufTy).Contents (Elt Ideal)) (x1 : (⟨S8192x2048, .f32⟩ : BufTy).Contents (Elt Ideal))
    (b : Fin 4) (s : Fin 4096) :
    val_main_v30 (F := Ideal) x0 x1 (ix2 b s)
      = foldMax wNegInf fun f : Fin 8192 =>
          eabs (refHidden (fun k => x0 (ix3 b s k)) (absTotal x1) (fun f k => x1 (ix2 f k)) f) := by
  unfold val_main_v30
  refine (host_max_last (val_main_v29 (F := Ideal) x0 x1) (val_main_cst_10 (F := Ideal)) reducesTo_S4x4096x8192_S4x4096_d2
    (by decide) h_S_ b s).trans ?_
  refine congrArg₂ foldMax rfl (funext fun f => ?_)
  rw [val_main_v29_apply, hidden_v28]
  rfl

/-- The hidden row's scale: 127 over its largest magnitude, at least ε. -/
theorem tokScale_v34 (x0 : (⟨S4x4096x2048, .f32⟩ : BufTy).Contents (Elt Ideal)) (x1 : (⟨S8192x2048, .f32⟩ : BufTy).Contents (Elt Ideal))
    (b : Fin 4) (s : Fin 4096) :
    val_main_v34 (F := Ideal) x0 x1 (ix3 b s (0 : Fin 1))
      = tokScale (refHidden (fun k => x0 (ix3 b s k)) (absTotal x1) (fun f k => x1 (ix2 f k))) := by
  rw [val_main_v34_apply, val_main_v33_apply, val_main_cst_12_apply, val_main_v32_apply, val_main_call7_v1_apply,
    val_main_call7_v0_apply, val_main_cst_11_apply, val_main_v31_apply, idx_v31_at, rowMax_v30]
  simp only [Ideal.hostDivf_def, Ideal.maximumf_def, Ideal.ofBits_def]
  rw [max_comm]
  rfl

/-- The second layer's left operand: the hidden entry plus the difference to its quantised value. -/
theorem ste_v42 (x0 : (⟨S4x4096x2048, .f32⟩ : BufTy).Contents (Elt Ideal)) (x1 : (⟨S8192x2048, .f32⟩ : BufTy).Contents (Elt Ideal))
    (b : Fin 4) (s : Fin 4096) (f : Fin 8192) :
    val_main_v42 (F := Ideal) x0 x1 (ix3 b s f)
      = ste (refHidden (fun k => x0 (ix3 b s k)) (absTotal x1) (fun f k => x1 (ix2 f k)) f)
          (tokQuant (refHidden (fun k => x0 (ix3 b s k)) (absTotal x1) (fun f k => x1 (ix2 f k))) f) := by
  rw [val_main_v42_apply, val_main_v41_apply, val_main_v40_apply, val_main_v39_apply, idx_v39_at,
    val_main_v38_apply, val_main_call9_v4_apply, val_main_call9_v3_apply, val_main_cst_14_apply,
    val_main_call9_v2_apply, val_main_call9_v1_apply, val_main_call9_v0_apply, val_main_cst_13_apply,
    val_main_v37_apply, val_main_v36_apply, val_main_v35_apply, idx_v35_at, tokScale_v34, hidden_v28]
  simp only [Ideal.addf_def, Ideal.subf_def, Ideal.hostDivf_def, Ideal.minimumf_def, Ideal.maximumf_def,
    Ideal.mulf_def, Ideal.hostUnary_roundeven_def, Ideal.ofBits_def]
  rfl

end Cert.QuantFfn.Ref

end
-- ==== Proof.RefValue.lean ====
/-
  The reference program's result, read at an index on the extended reals.

  The second product at (b, s, d) is the sum over f of the quantised-difference operands of the token's hidden row
  and of row d of the second matrix: the block's output row as the reference computes it.
-/
import proofs.«159230_j29678224016194_1_alg».proof.Proof.RefValueH2
import proofs.«159230_j29678224016194_1_alg».proof.Proof.RefValueW

noncomputable section

namespace Cert.QuantFfn.Ref

open Cert.ReferenceIdeal Cert.ReferenceIdeal.Gen Cert.ReferenceIdeal.ReadP Idealize.ShloMosaic Idealize.ShloMosaic.ValueIdx
open Cert.QuantFfn Cert.LibAxisMax

/-! ## The output row -/

/-- The second product contracts the hidden row's last axis … -/
theorem lidx_v56_at (b : Fin 4) (s : Fin 4096) (d : Fin 2048) (f : Fin 8192) :
    lidx_main_v56 (ix3 b s d) f = ix3 b s f :=
  funext fun a => Fin.ext (by match a with | ⟨0, _⟩ => rfl | ⟨1, _⟩ => rfl | ⟨2, _⟩ => rfl)

/-- … against the second matrix's last axis. -/
theorem ridx_v56_at (b : Fin 4) (s : Fin 4096) (d : Fin 2048) (f : Fin 8192) :
    ridx_main_v56 (ix3 b s d) f = ix2 d f :=
  funext fun a => Fin.ext (by match a with | ⟨0, _⟩ => rfl | ⟨1, _⟩ => rfl)

/-- The reference's result at (b, s, d) is the block's output row of token (b, s) at d, every operand a + (q − a). -/
theorem ref_apply
    (x0 : (⟨S4x4096x2048, .f32⟩ : BufTy).Contents (Elt Ideal)) (x1 : (⟨S8192x2048, .f32⟩ : BufTy).Contents (Elt Ideal))
    (x2 : (⟨S2048x8192, .f32⟩ : BufTy).Contents (Elt Ideal)) (b : Fin 4) (s : Fin 4096) (d : Fin 2048) :
    val_main_v56 (F := Ideal) x0 x1 x2 (ix3 b s d)
      = refOut (fun k => x0 (ix3 b s k)) (absTotal x1) (fun f k => x1 (ix2 f k)) (absTotal x2) (fun d' f => x2 (ix2 d' f)) d := by
  rw [val_main_v56_apply]
  refine Finset.sum_congr rfl fun f _ => ?_
  rw [lidx_v56_at, ridx_v56_at, ste_v42, ste_v55]

end Cert.QuantFfn.Ref

end
-- ==== Proof.RefRun.lean ====
/-
  The reference program's run, read back: every weakly fair execution of its @main terminates with the result
  buffer at the composed value of the three arguments' launch contents, the arguments unchanged.

  The printed program spells the operations of its outlined functions over typed references, whose contents are
  moved to and from a buffer's own type along the reference's type equation. At a literal reference that transport
  is the identity, so each such operation is the plain builder at the same buffers (`ops_eq_plain`, entry by entry);
  the fold of the plain operations over the launch contents then reads back, one operation at a time, as the
  composed term, which is the value the per-operation read names `val_main_v56`.
-/
import proofs.«159230_j29678224016194_1_alg».proof.Proof.RefOpsP
import proofs.«159230_j29678224016194_1_alg».proof.Proof.RefOpsPlain
import proofs.«159230_j29678224016194_1_alg».proof.Proof.RefReadP
import Idealize.ShloMosaic.Lib.StableHlo.Run

noncomputable section

namespace Cert.QuantFfn.Ref

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

set_option maxRecDepth 8192 in
/-- An outlined function's operation at literal references is the plain operation: the lists agree entry by entry. -/
theorem ops_eq_plain : (ops : List (HloOp τ sig (Elt F))) = opsPlain := rfl

set_option maxRecDepth 16384 in
set_option maxHeartbeats 4000000 in
/-- The result buffer after the operations, from any contents: the composed value of the arguments' contents. -/
theorem after_v56 (V : Valuation τ sig (Elt F)) :
    after (ops (F := F)) V (Proc.devRef .tc main_v56)
      = val_main_v56 (F := F) (V (Proc.devRef .tc main_arg0)) (V (Proc.devRef .tc main_arg1)) (V (Proc.devRef .tc main_arg2)) := by
  rw [ops_eq_plain]
  after_results_simp
  rfl

set_option maxRecDepth 16384 in
set_option maxHeartbeats 4000000 in
/-- No operation writes an argument's buffer. -/
theorem after_args (V : Valuation τ sig (Elt F)) :
    after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2) := by
  rw [ops_eq_plain]
  refine ⟨?_, ?_, ?_⟩ <;> after_results_simp

/-- On every device, from any memory with zero counters: every weakly fair execution of @main terminates with the
    result at the composed value of the arguments and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v56) = val_main_v56 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v56).trans (after_v56 (launchContents m c)),
        (h c main_arg0).trans (after_args (launchContents m c)).1,
        (h c main_arg1).trans (after_args (launchContents m c)).2.1,
        (h c main_arg2).trans (after_args (launchContents m c)).2.2⟩)
    (run_seq scopedRefs_eq scopedSems_eq defs main (fun _ => ops) main_eq (fun _ => ops_sub) m ρ)

end Cert.QuantFfn.Ref

end
-- ==== Proof.Bridge.lean ====
/-
  The reference's operands a + (q − a) are the kernel's operands q.

  On the extended reals a + (q − a) = q whenever a is a real number, whatever q is: for a real q this is the
  arithmetic of the reals, and q = ⊤ or q = ⊥ absorbs the real summands. Every operand of the block is real
  when the inputs are: a token's quantised entry is a limited numerator (between -128 and 127) divided by a
  positive real scale, a quantised weight is a limited numerator (between -1 and 1) divided by a positive real
  scale, a finite sum of products of reals is real, and the gated unit of a real is real.
-/
import proofs.«159230_j29678224016194_1_alg».proof.Proof.Spec

noncomputable section

namespace Cert.QuantFfn

open Idealize.ShloMosaic Cert.LibAxisMax

/-! ## Realness is closed under the arithmetic -/

theorem isReal_coe (r : ℝ) : IsReal (r : EReal) := ⟨r, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is a real number. -/
theorem isReal_of_ne {x : EReal} (ht : x ≠ ⊤) (hb : x ≠ ⊥) : IsReal x :=
  ⟨x.toReal, (EReal.coe_toReal ht hb).symm⟩

/-- An extended real between two real numbers is a real number. -/
theorem isReal_of_between {a b x : EReal} (ha : IsReal a) (hb : IsReal b) (hax : a ≤ x) (hxb : x ≤ b) : IsReal x :=
  isReal_of_ne (fun h => hb.ne_top (top_le_iff.mp (h ▸ hxb))) (fun h => ha.ne_bot (le_bot_iff.mp (h ▸ hax)))

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A real number divided by a nonzero real number is a real number. -/
theorem isReal_div {x : EReal} {y : ℝ} (hx : IsReal x) (hy : y ≠ 0) : IsReal (Ideal.div x (y : EReal)) := by
  rw [Ideal.div_coe hy]; exact hx.mul ⟨_, rfl⟩

theorem IsReal.eabs {x : EReal} (hx : IsReal x) : IsReal (eabs x) := hx.max hx.neg

/-! ## The words as real numbers -/

theorem wNegInf_eq : wNegInf = ⊥ := by simp [Ideal.ofBits, Ideal.ieee]
theorem w127_eq : w127 = ((127 : ℝ) : EReal) := by simp [Ideal.ofBits, Ideal.ieee, -EReal.coe_mul]; norm_num
theorem wNeg128_eq : wNeg128 = ((-128 : ℝ) : EReal) := by simp [Ideal.ofBits, Ideal.ieee, -EReal.coe_mul]; norm_num
theorem wOne_eq : wOne = ((1 : ℝ) : EReal) := by simp [Ideal.ofBits, Ideal.ieee, -EReal.coe_mul]; norm_num
theorem wNegOne_eq : wNegOne = ((-1 : ℝ) : EReal) := by simp [Ideal.ofBits, Ideal.ieee, -EReal.coe_mul]; norm_num
theorem wCount_eq : wCount = ((16777216 : ℝ) : EReal) := by simp [Ideal.ofBits, Ideal.ieee, -EReal.coe_mul]; norm_num
theorem wZero_eq : wZero = ((0 : ℝ) : EReal) := by simp [Ideal.ofBits, Ideal.ieee]
theorem wEps_eq : wEps = ((10995116 * (2 : ℝ) ^ (-40 : ℤ) : ℝ) : EReal) := by
  simp [Ideal.ofBits, Ideal.ieee, -EReal.coe_mul]

theorem wEps_isReal : IsReal wEps := by rw [wEps_eq]; exact ⟨_, rfl⟩

theorem wEps_pos : (0 : EReal) < wEps := by
  rw [wEps_eq]; exact EReal.coe_pos.mpr (by positivity)

/-- The larger of an extended real other than ⊤ and ε is a positive real number. -/
theorem max_eps_pos {a : EReal} (ha : a ≠ ⊤) : ∃ d : ℝ, 0 < d ∧ max a wEps = (d : EReal) := by
  have hne_top : max a wEps ≠ ⊤ := by
    rcases max_choice a wEps with h | h <;> rw [h]
    · exact ha
    · exact wEps_isReal.ne_top
  have hpos : (0 : EReal) < max a wEps := lt_of_lt_of_le wEps_pos (le_max_right _ _)
  have hne_bot : max a wEps ≠ ⊥ := fun h => by rw [h] at hpos; exact not_lt_bot hpos
  obtain ⟨d, hd⟩ := isReal_of_ne hne_top hne_bot
  refine ⟨d, ?_, hd⟩
  rw [hd] at hpos; exact EReal.coe_pos.mp hpos

/-- A value limited to an interval with real ends is a real number. -/
theorem clamp_isReal {lo hi : EReal} (hlo : IsReal lo) (hhi : IsReal hi) (hle : lo ≤ hi) (x : EReal) :
    IsReal (min hi (max lo x)) :=
  isReal_of_between hlo hhi (le_min hle (le_max_left _ _)) (min_le_left _ _)

/-! ## The token's quantised entries -/

/-- The running maximum, started from -∞, of real magnitudes is not ⊤. -/
theorem foldMax_ne_top {n : ℕ} (f : Fin n → EReal) (hf : ∀ k, IsReal (f k)) : foldMax wNegInf f ≠ ⊤ := by
  have h : foldMax wNegInf f < ⊤ := by
    unfold foldMax
    rw [Finset.fold_max_lt]
    exact ⟨by rw [wNegInf_eq]; exact bot_lt_top, fun k _ => lt_top_iff_ne_top.mpr (hf k).ne_top⟩
  exact h.ne

/-- The scale of a real row is a nonzero real number. -/
theorem tokScale_real {K : ℕ} (row : Fin K → EReal) (h : ∀ k, IsReal (row k)) :
    ∃ t : ℝ, t ≠ 0 ∧ tokScale row = (t : EReal) := by
  obtain ⟨d, hd, hD⟩ := max_eps_pos (foldMax_ne_top (fun k => eabs (row k)) fun k => (h k).eabs)
  refine ⟨127 * (1 / d), (by positivity : (0 : ℝ) < 127 * (1 / d)).ne', ?_⟩
  unfold tokScale
  rw [hD, Ideal.div_coe hd.ne', w127_eq, ← EReal.coe_mul]

theorem tokQuant_isReal {K : ℕ} (row : Fin K → EReal) (h : ∀ k, IsReal (row k)) (k : Fin K) :
    IsReal (tokQuant row k) := by
  obtain ⟨t, ht, hT⟩ := tokScale_real row h
  unfold tokQuant
  rw [hT]
  refine isReal_div (clamp_isReal ?_ ?_ ?_ _) ht
  · rw [wNeg128_eq]; exact ⟨_, rfl⟩
  · rw [w127_eq]; exact ⟨_, rfl⟩
  · rw [wNeg128_eq, w127_eq]; exact EReal.coe_le_coe_iff.mpr (by norm_num)

/-! ## The quantised weights -/

/-- The scale of a weight matrix with a real total is a nonzero real number. -/
theorem wScale_real {s : EReal} (hs : IsReal s) : ∃ t : ℝ, t ≠ 0 ∧ wScale s = (t : EReal) := by
  have h1 : IsReal (Ideal.div s wCount) := by rw [wCount_eq]; exact isReal_div hs (by norm_num)
  obtain ⟨d, hd, hD⟩ := max_eps_pos h1.ne_top
  refine ⟨1 * (1 / d), (by positivity : (0 : ℝ) < 1 * (1 / d)).ne', ?_⟩
  unfold wScale
  rw [hD, Ideal.div_coe hd.ne', wOne_eq, ← EReal.coe_mul]

theorem wQuant_isReal {s : EReal} (hs : IsReal s) (w : EReal) : IsReal (wQuant s w) := by
  obtain ⟨t, ht, hT⟩ := wScale_real hs
  unfold wQuant
  rw [hT]
  refine isReal_div (clamp_isReal ?_ ?_ ?_ _) ht
  · rw [wNegOne_eq]; exact ⟨_, rfl⟩
  · rw [wOne_eq]; exact ⟨_, rfl⟩
  · rw [wNegOne_eq, wOne_eq]; exact EReal.coe_le_coe_iff.mpr (by norm_num)

/-! ## The gated unit and the hidden row -/

theorem silu_isReal {v : EReal} (hv : IsReal v) : IsReal (silu v) := by
  obtain ⟨r, rfl⟩ := hv
  unfold silu
  rw [Ideal.logistic_coe]
  exact ⟨_, (EReal.coe_mul _ _).symm⟩

theorem hidden_isReal (xrow : Fin 2048 → EReal) (s1 : EReal) (W1 : Fin 8192 → Fin 2048 → EReal)
    (hx : ∀ k, IsReal (xrow k)) (hs1 : IsReal s1) (f : Fin 8192) : IsReal (hidden xrow s1 W1 f) := by
  unfold hidden
  exact silu_isReal (isReal_sum _ _ fun k _ => (tokQuant_isReal xrow hx k).mul (wQuant_isReal hs1 _))

/-! ## a + (q − a) = q on a real a -/

theorem ste_of_isReal {a : EReal} (q : EReal) (ha : IsReal a) : ste a q = q := by
  obtain ⟨r, rfl⟩ := ha
  unfold ste
  induction q using EReal.rec with
  | bot => simp
  | coe x => rw [← EReal.coe_sub, ← EReal.coe_add]; congr 1; ring
  | top => simp

theorem absTotal_isReal {s : Idealize.ShloMosaic.Shape} (x : s.Idx → EReal) (hx : ∀ j, IsReal (x j)) :
    IsReal (absTotal x) := by
  unfold absTotal
  rw [wZero_eq]
  exact (isReal_coe 0).add (isReal_sum _ _ fun j _ => (hx j).eabs)

/-- On real inputs the reference's hidden row is the kernel's. -/
theorem refHidden_eq_hidden (xrow : Fin 2048 → EReal) (s1 : EReal) (W1 : Fin 8192 → Fin 2048 → EReal)
    (hx : ∀ k, IsReal (xrow k)) (hW1 : ∀ f k, IsReal (W1 f k)) : refHidden xrow s1 W1 = hidden xrow s1 W1 := by
  funext f
  unfold refHidden hidden
  refine congrArg silu (Finset.sum_congr rfl fun k _ => ?_)
  rw [ste_of_isReal _ (hx k), ste_of_isReal _ (hW1 f k)]

/-- On real inputs the reference's output row is the kernel's. -/
theorem refOut_eq_out (xrow : Fin 2048 → EReal) (s1 : EReal) (W1 : Fin 8192 → Fin 2048 → EReal) (s2 : EReal)
    (W2 : Fin 2048 → Fin 8192 → EReal) (hx : ∀ k, IsReal (xrow k)) (hs1 : IsReal s1) (hW1 : ∀ f k, IsReal (W1 f k))
    (hW2 : ∀ d f, IsReal (W2 d f)) (d : Fin 2048) : refOut xrow s1 W1 s2 W2 d = out xrow s1 W1 s2 W2 d := by
  unfold refOut out
  rw [refHidden_eq_hidden xrow s1 W1 hx hW1]
  refine Finset.sum_congr rfl fun f _ => ?_
  rw [ste_of_isReal _ (hidden_isReal xrow s1 W1 hx hs1 f), ste_of_isReal _ (hW2 d f)]

end Cert.QuantFfn

end
-- ==== Proof.Finite.lean ====
/-
  The precondition says that every entry of the three arrays is a real number.

  The precondition computes, for each array, whether every magnitude |x| is below +∞, and takes the conjunction
  of the three answers. A conjunction that is 1 has both parts 1; an "all" that is 1 has a 1 at every index;
  and |x| < +∞ on the extended reals excludes x = ⊤ and x = ⊥, whose magnitude is ⊤.
-/
import proofs.«159230_j29678224016194_1_alg».proof.Pre_finite_inputs
import proofs.«159230_j29678224016194_1_alg».proof.Proof.Gen.Pre_finite_inputs
import proofs.«159230_j29678224016194_1_alg».proof.Proof.Spec
import Idealize.ShloMosaic.Lib.ReduceAll
import Idealize.ShloMosaic.Lib.ValueIdx

noncomputable section

namespace Cert.QuantFfn

open Idealize.ShloMosaic

/-- The shape of rank 0 has one index. -/
instance subsingleton_scalar_idx : Subsingleton Cert.Pre_finite_inputs.S_.Idx :=
  ⟨fun a b => funext fun d => d.elim0⟩

/-- An extended real whose magnitude is below +∞ is a real number. -/
theorem isReal_of_abs_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

open Idealize.ShloMosaic in
/-- Under the precondition every entry of the three arrays is a real number. -/
theorem real_of_pre [Cert.Pre_finite_inputs.Facts]
    (x0 : FVec Ideal Cert.Pre_finite_inputs.S4x4096x2048 .f32) (x1 : FVec Ideal Cert.Pre_finite_inputs.S8192x2048 .f32)
    (x2 : FVec Ideal Cert.Pre_finite_inputs.S2048x8192 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ValueIdx.ix0
  dsimp only [Cert.Pre_finite_inputs.fn] at h0
  obtain ⟨h01, h2⟩ := IntOp.andi_eq_one.1 h0
  obtain ⟨hA, hB⟩ := IntOp.andi_eq_one.1 h01
  exact ⟨fun i => isReal_of_abs_lt_inf (x0 i) (Host.reduce_andi_all _ _ _ _ _ hA i),
    fun i => isReal_of_abs_lt_inf (x1 i) (Host.reduce_andi_all _ _ _ _ _ hB i),
    fun i => isReal_of_abs_lt_inf (x2 i) (Host.reduce_andi_all _ _ _ _ _ h2 i)⟩

end Cert.QuantFfn

end
-- ==== Proof.lean ====
/-
  The certificate: a two-layer feed-forward block with quantised operands, computed by two grid kernels, against
  its reference.

  Both programs compute, for every token (b, s) and output coordinate d,
      ∑_f Q(h)(f) · T₂(W2)(d, f),    h(f) = v · σ(v),  v = ∑ₖ Q(x(b, s, ·))(k) · T₁(W1)(f, k),
  where Q puts a row on the 8-bit grid with the row's own scale 127 / max(max |row|, ε) and T puts a weight matrix on
  the ternary grid with the scale 1 / max(mean |W|, ε). The kernel program quantises the weights on the host,
  transposes them, and runs the two products as grids of 64 × 8 blocks, each block holding whole rows, so a row's
  largest magnitude is the same number there as in the reference; sums are exact on the extended reals, so the
  blocking and the order of summation leave no trace. The reference writes every operand as a + (q − a), which is q
  as soon as a is a real number: the inputs are real by the precondition, and the hidden row is real because every
  quantised entry is a bounded numerator over a positive real scale. The gated unit is one function on both sides
  (1 / (1 + e⁻ᵛ) spelt out on the host). No operation was rewritten by the idealisation, so nothing is owed for it.
-/
import proofs.«159230_j29678224016194_1_alg».proof.Defs
import proofs.«159230_j29678224016194_1_alg».proof.Proof.Gen.Kernel
import proofs.«159230_j29678224016194_1_alg».proof.Proof.Gen.Kernel.Frame
import proofs.«159230_j29678224016194_1_alg».proof.Proof.Gen.KernelIdeal
import proofs.«159230_j29678224016194_1_alg».proof.Proof.Gen.KernelIdeal.Frame
import proofs.«159230_j29678224016194_1_alg».proof.Proof.Gen.ReferenceIdeal
import proofs.«159230_j29678224016194_1_alg».proof.Proof.Gen.Pre_finite_inputs
import proofs.«159230_j29678224016194_1_alg».proof.Proof.KernelValue
import proofs.«159230_j29678224016194_1_alg».proof.Proof.RefValue
import proofs.«159230_j29678224016194_1_alg».proof.Proof.RefRun
import proofs.«159230_j29678224016194_1_alg».proof.Proof.Bridge
import proofs.«159230_j29678224016194_1_alg».proof.Proof.Finite
import Idealize.ShloMosaic.Adequacy
import Idealize.ShloMosaic.Init

noncomputable section

namespace Cert.Proof

open Idealize.ShloMosaic Idealize.ShloMosaic.ValueIdx Idealize.SL.Sem Cert.QuantFfn

/-- The kernel program runs and leaves its arguments alone. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments alone: its run with the result dropped. -/
theorem frame_reference_ideal : Cert.frame_ReferenceIdeal := fun m ρ _ =>
  (θ_run Cert.ReferenceIdeal.defs _ _).mono (fun _ h c => (h c).2) (Cert.QuantFfn.Ref.ref_run m ρ)

/-- The idealisation rewrote nothing. -/
theorem preserves : Cert.preserves_Kernel_KernelIdeal := trivial

/-- On real inputs the two programs end with the same array: the kernel's run ends at the block of its arguments
    token by token, the reference's at the same block with every operand written a + (q − a). -/
theorem algebraic : Cert.algebraic_KernelIdeal_ReferenceIdeal := by
  intro m ρ m' ρ' hpre hagree
  refine ⟨_, Cert.QuantFfn.Kernel.run_value m ρ, ?_⟩
  refine (θ_run Cert.ReferenceIdeal.defs _ _).mono (fun _ h c => ⟨(h c).1.trans ?_, (h c).2⟩)
    (Cert.QuantFfn.Ref.ref_run m' ρ')
  rw [(hagree c).1, (hagree c).2.1, (hagree c).2.2]
  obtain ⟨h0, h1, h2⟩ := Cert.QuantFfn.real_of_pre _ _ _ (hpre c)
  funext i
  obtain ⟨b, s, d, rfl⟩ : ∃ (b : Fin 4) (s : Fin 4096) (d : Fin 2048), i = ix3 b s d := ⟨i 0, i 1, i 2, eq_ix3 i⟩
  rw [Cert.QuantFfn.Ref.ref_apply]
  exact refOut_eq_out _ _ _ _ _ (fun k => h0 _) (absTotal_isReal _ h1) (fun f k => h1 _) (fun d' f => h2 _) d

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
